-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x16384x128 : Shape := ⟨3, ![16, 16384, 128]⟩
abbrev S16x16384 : Shape := ⟨2, ![16, 16384]⟩
abbrev S_ : Shape := ⟨0, ![]⟩

class Facts : Prop where
  bcast_S_S16x16384x128 : S_.BroadcastsInDim S16x16384x128 (![] : Fin 0 → Fin S16x16384x128.rank)
  reducesTo_S16x16384x128_S_d0_1_2 : S16x16384x128.ReducesTo [0, 1, 2] S_
  h_S_ : 0 < S_.numel

variable [Facts]

def fn {F : FTy → Type} [FloatOps F] (main_arg0 : FVec F S16x16384x128 .f32) (main_arg1 : IVec S16x16384 32) : IVec S_ 1 :=
  let main_v0 : FVec F S16x16384x128 .f32 := Host.absf main_arg0
  let main_cst : FVec F S_ .f32 := constant S_ .f32 0x7F800000#32
  let main_v1 : FVec F S16x16384x128 .f32 := broadcastInDim S16x16384x128 ![] bcast_S_S16x16384x128 main_cst
  let main_v2 : IVec S16x16384x128 1 := cmpf .olt main_v0 main_v1
  let main_c : IVec S_ 1 := constantI S_ 1 1#1
  let main_v3 : IVec S_ 1 := (fun x v => Host.reduce IntOp.andi x v reducesTo_S16x16384x128_S_d0_1_2 h_S_) main_v2 main_c
  main_v3
-- ==== Kernel.lean ====
abbrev S16x16384x128 : Shape := ⟨3, ![16, 16384, 128]⟩
abbrev S16x16384 : Shape := ⟨2, ![16, 16384]⟩
abbrev S16x32x128 : Shape := ⟨3, ![16, 32, 128]⟩
abbrev S16x32 : Shape := ⟨2, ![16, 32]⟩
abbrev S8x2048x128 : Shape := ⟨3, ![8, 2048, 128]⟩
abbrev S8x2048 : Shape := ⟨2, ![8, 2048]⟩
abbrev S8x32x128 : Shape := ⟨3, ![8, 32, 128]⟩
abbrev S8x32 : Shape := ⟨2, ![8, 32]⟩
abbrev S8x2048x32 : Shape := ⟨3, ![8, 2048, 32]⟩
abbrev S8x2048x1 : Shape := ⟨3, ![8, 2048, 1]⟩
abbrev S_ : Shape := ⟨0, ![]⟩
abbrev S16x32x1 : Shape := ⟨3, ![16, 32, 1]⟩
abbrev S16x32x32 : Shape := ⟨3, ![16, 32, 32]⟩
abbrev S32x32 : Shape := ⟨2, ![32, 32]⟩
abbrev S1x32x32 : Shape := ⟨3, ![1, 32, 32]⟩
abbrev S16 : Shape := ⟨1, ![16]⟩

abbrev nBuf : Space → Nat
  | .hbm => 54
  | .vmem => 8
  | .smem => 0
  | _ => 0

abbrev bufTy : (tb : Table) → Fin (tcTables nBuf tb) → BufTy
  | .hbm, ⟨0, _⟩ => ⟨S16x16384x128, .f32⟩
  | .hbm, ⟨1, _⟩ => ⟨S16x16384, .i32⟩
  | .hbm, ⟨2, _⟩ => ⟨S16x32x128, .f32⟩
  | .hbm, ⟨3, _⟩ => ⟨S16x32, .f32⟩
  | .hbm, ⟨4, _⟩ => ⟨S_, .f32⟩
  | .hbm, ⟨5, _⟩ => ⟨S16x32, .f32⟩
  | .hbm, ⟨6, _⟩ => ⟨S16x32, .f32⟩
  | .hbm, ⟨7, _⟩ => ⟨S16x32x1, .f32⟩
  | .hbm, ⟨8, _⟩ => ⟨S16x32x128, .f32⟩
  | .hbm, ⟨9, _⟩ => ⟨S16x32x128, .f32⟩
  | .hbm, ⟨10, _⟩ => ⟨S16x32x32, .f32⟩
  | .hbm, ⟨11, _⟩ => ⟨S16x32x32, .f32⟩
  | .hbm, ⟨12, _⟩ => ⟨S_, .f32⟩
  | .hbm, ⟨13, _⟩ => ⟨S32x32, .f32⟩
  | .hbm, ⟨14, _⟩ => ⟨S32x32, .i32⟩
  | .hbm, ⟨15, _⟩ => ⟨S_, .i32⟩
  | .hbm, ⟨16, _⟩ => ⟨S32x32, .i32⟩
  | .hbm, ⟨17, _⟩ => ⟨S32x32, .i32⟩
  | .hbm, ⟨18, _⟩ => ⟨S32x32, .i32⟩
  | .hbm, ⟨19, _⟩ => ⟨S32x32, .i1⟩
  | .hbm, ⟨20, _⟩ => ⟨S_, .f32⟩
  | .hbm, ⟨21, _⟩ => ⟨S32x32, .f32⟩
  | .hbm, ⟨22, _⟩ => ⟨S32x32, .f32⟩
  | .hbm, ⟨23, _⟩ => ⟨S1x32x32, .f32⟩
  | .hbm, ⟨24, _⟩ => ⟨S16x32x32, .f32⟩
  | .hbm, ⟨25, _⟩ => ⟨S16x32x32, .f32⟩
  | .hbm, ⟨26, _⟩ => ⟨S_, .f32⟩
  | .hbm, ⟨27, _⟩ => ⟨S16, .f32⟩
  | .hbm, ⟨28, _⟩ => ⟨S_, .f32⟩
  | .hbm, ⟨29, _⟩ => ⟨S16x32, .f32⟩
  | .hbm, ⟨30, _⟩ => ⟨S16x32, .i1⟩
  | .hbm, ⟨31, _⟩ => ⟨S16x32, .i32⟩
  | .hbm, ⟨32, _⟩ => ⟨S_, .i32⟩
  | .hbm, ⟨33, _⟩ => ⟨S16, .i32⟩
  | .hbm, ⟨34, _⟩ => ⟨S16, .f32⟩
  | .hbm, ⟨35, _⟩ => ⟨S_, .f32⟩
  | .hbm, ⟨36, _⟩ => ⟨S16, .f32⟩
  | .hbm, ⟨37, _⟩ => ⟨S16, .i1⟩
  | .hbm, ⟨38, _⟩ => ⟨S_, .f32⟩
  | .hbm, ⟨39, _⟩ => ⟨S16, .f32⟩
  | .hbm, ⟨40, _⟩ => ⟨S16, .f32⟩
  | .hbm, ⟨41, _⟩ => ⟨S16, .f32⟩
  | .hbm, ⟨42, _⟩ => ⟨S_, .f32⟩
  | .hbm, ⟨43, _⟩ => ⟨S16, .f32⟩
  | .hbm, ⟨44, _⟩ => ⟨S16, .f32⟩
  | .hbm, ⟨45, _⟩ => ⟨S_, .f32⟩
  | .hbm, ⟨46, _⟩ => ⟨S_, .f32⟩
  | .hbm, ⟨47, _⟩ => ⟨S16, .f32⟩
  | .hbm, ⟨48, _⟩ => ⟨S16, .f32⟩
  | .hbm, ⟨49, _⟩ => ⟨S16, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .local _ .vmem, ⟨0, _⟩ => ⟨S8x2048x128, .f32⟩
  | .local _ .vmem, ⟨1, _⟩ => ⟨S8x2048x128, .f32⟩
  | .local _ .vmem, ⟨2, _⟩ => ⟨S8x2048, .i32⟩
  | .local _ .vmem, ⟨3, _⟩ => ⟨S8x2048, .i32⟩
  | .local _ .vmem, ⟨4, _⟩ => ⟨S8x32x128, .f32⟩
  | .local _ .vmem, ⟨5, _⟩ => ⟨S8x32x128, .f32⟩
  | .local _ .vmem, ⟨6, _⟩ => ⟨S8x32, .f32⟩
  | .local _ .vmem, ⟨7, _⟩ => ⟨S8x32, .f32⟩
  | _, _ => ⟨S16x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_cst : Ref sig .tc := ⟨.hbm, 20, rfl⟩
abbrev main_call0_v5 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_v25 : Ref sig .tc := ⟨.hbm, 44, rfl⟩
abbrev main_cst_6 : Ref sig .tc := ⟨.hbm, 45, rfl⟩
abbrev main_call1_v0 : Ref sig .tc := ⟨.hbm, 46, rfl⟩
abbrev main_call1_v1 : Ref sig .tc := ⟨.hbm, 47, rfl⟩
abbrev main_v26 : Ref sig .tc := ⟨.hbm, 48, rfl⟩
abbrev main_v27 : Ref sig .tc := ⟨.hbm, 49, rfl⟩
abbrev main_cst_7 : Ref sig .tc := ⟨.hbm, 50, rfl⟩
abbrev main_v28 : Ref sig .tc := ⟨.hbm, 51, rfl⟩
abbrev main_cst_8 : Ref sig .tc := ⟨.hbm, 52, rfl⟩
abbrev main_v29 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S8x32x128_S8x32x128_0_0_0 : ∀ a, (![0, 0, 0] : Fin 3 → Nat) a + S8x32x128.size a ≤ S8x32x128.size a
  h_S8x32x128 : 0 < S8x32x128.numel
  inb_S8x32_S8x32_0_0 : ∀ a, (![0, 0] : Fin 2 → Nat) a + S8x32.size a ≤ S8x32.size a
  h_S8x32 : 0 < S8x32.numel
  inb_S8x2048_S8x2048_0_0 : ∀ a, (![0, 0] : Fin 2 → Nat) a + S8x2048.size a ≤ S8x2048.size a
  h_S8x2048 : 0 < S8x2048.numel
  iota_S8x2048x32_d2_w32 : S8x2048x32.Iotas .tc 32 [2]
  shapeCasts_S8x2048_S8x2048x1 : S8x2048.ShapeCasts S8x2048x1
  broadcasts_S8x2048x1_S8x2048x32 : S8x2048x1.Broadcasts S8x2048x32
  natLt_1_32 : 1 < 32
  shapeCasts_S8x32_S8x32 : S8x32.ShapeCasts S8x32
  reduces_S8x2048x32_S8x32 : S8x2048x32.Reduces [1] S8x32
  bitsLt_bf16_f32 : FTy.bits .bf16 < FTy.bits .f32
  inb_S8x2048x128_S8x2048x128_0_0_0 : ∀ a, (![0, 0, 0] : Fin 3 → Nat) a + S8x2048x128.size a ≤ S8x2048x128.size a
  h_S8x2048x128 : 0 < S8x2048x128.numel
  shapeCasts_S8x32x128_S8x32x128 : S8x32x128.ShapeCasts S8x32x128
  bcast_S_S16x32 : S_.BroadcastsInDim S16x32 (![] : Fin 0 → Fin S16x32.rank)
  bcast_S16x32_S16x32x1_0_1 : S16x32.BroadcastsInDim S16x32x1 (![0, 1] : Fin 2 → Fin S16x32x1.rank)
  bcast_S16x32x1_S16x32x128_0_1_2 : S16x32x1.BroadcastsInDim S16x32x128 (![0, 1, 2] : Fin 3 → Fin S16x32x128.rank)
  bcast_S_S32x32 : S_.BroadcastsInDim S32x32 (![] : Fin 0 → Fin S32x32.rank)
  bcast_S32x32_S1x32x32_1_2 : S32x32.BroadcastsInDim S1x32x32 (![1, 2] : Fin 2 → Fin S1x32x32.rank)
  bcast_S1x32x32_S16x32x32_0_1_2 : S1x32x32.BroadcastsInDim S16x32x32 (![0, 1, 2] : Fin 3 → Fin S16x32x32.rank)
  reducesTo_S16x32x32_S16_d1_2 : S16x32x32.ReducesTo [1, 2] S16
  h_S_ : 0 < S_.numel
  reducesTo_S16x32_S16_d1 : S16x32.ReducesTo [1] S16
  bcast_S_S16 : S_.BroadcastsInDim S16 (![] : Fin 0 → Fin S16.rank)
  reducesTo_S16_S_d0 : S16.ReducesTo [0] S_
  dot_S8x2048x32_S8x2048x128_S8x32x128_1_1_2_2_0_0_wf : DotDims.WF S8x2048x32 S8x2048x128 S8x32x128 [1] [1] [2] [2] [0] [0]
  dot_S16x32x128_S16x32x128_S16x32x32_2_2_1_1_0_0_wf : DotDims.WF S16x32x128 S16x32x128 S16x32x32 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2048x128.size a ≤ S16x16384x128.size a
  hwx0_0 : ∀ i : grid0.Coords, EltTy.bits .f32 = 32 ∨ (Rect.block (s := S16x16384x128) S8x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x2048.size a ≤ S16x16384.size a
  hwx0_1 : ∀ i : grid0.Coords, EltTy.bits .i32 = 32 ∨ (Rect.block (s := S16x16384) S8x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x32x128.size a ≤ S16x32x128.size a
  hwx0_2 : ∀ i : grid0.Coords, EltTy.bits .f32 = 32 ∨ (Rect.block (s := S16x32x128) S8x32x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x32.size a ≤ S16x32.size a
  hwx0_3 : ∀ i : grid0.Coords, EltTy.bits .f32 = 32 ∨ (Rect.block (s := S16x32) S8x32.size (cc0_transform_3 i) (hinb0_3 i)).WholeWords (EltTy.packing .f32)

variable [Facts₀]

def dot_S8x2048x32_S8x2048x128_S8x32x128_1_1_2_2_0_0 : DotDims S8x2048x32 S8x2048x128 S8x32x128 where
  lhsContracting := [1]
  rhsContracting := [1]
  lhsNonContracting := [2]
  rhsNonContracting := [2]
  lhsBatch := [0]
  rhsBatch := [0]
  wf := dot_S8x2048x32_S8x2048x128_S8x32x128_1_1_2_2_0_0_wf
def dot_S16x32x128_S16x32x128_S16x32x32_2_2_1_1_0_0 : DotDims S16x32x128 S16x32x128 S16x32x32 where
  lhsContracting := [2]
  rhsContracting := [2]
  lhsNonContracting := [1]
  rhsNonContracting := [1]
  lhsBatch := [0]
  rhsBatch := [0]
  wf := dot_S16x32x128_S16x32x128_S16x32x32_2_2_1_1_0_0_wf

abbrev win0_0 : Pipeline.Window sig grid0 :=
  Pipeline.Window.ofSpec (Memref.whole main_arg0) S8x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S8x32x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S8x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x16384x128 : Shape := ⟨3, ![16, 16384, 128]⟩
abbrev S16x16384 : Shape := ⟨2, ![16, 16384]⟩
abbrev S16x16384x1 : Shape := ⟨3, ![16, 16384, 1]⟩
abbrev S32 : Shape := ⟨1, ![32]⟩
abbrev S1x1x32 : Shape := ⟨3, ![1, 1, 32]⟩
abbrev S16x16384x32 : Shape := ⟨3, ![16, 16384, 32]⟩
abbrev S_ : Shape := ⟨0, ![]⟩
abbrev S16x32 : Shape := ⟨2, ![16, 32]⟩
abbrev S16x32x128 : Shape := ⟨3, ![16, 32, 128]⟩
abbrev S16x32x1 : Shape := ⟨3, ![16, 32, 1]⟩
abbrev S16x32x32 : Shape := ⟨3, ![16, 32, 32]⟩
abbrev S32x32 : Shape := ⟨2, ![32, 32]⟩
abbrev S1x32x32 : Shape := ⟨3, ![1, 32, 32]⟩
abbrev S16 : Shape := ⟨1, ![16]⟩

abbrev nBuf : Space → Nat
  | .hbm => 62
  | .vmem => 0
  | .smem => 0
  | _ => 0

abbrev bufTy : (tb : Table) → Fin (tcTables nBuf tb) → BufTy
  | .hbm, ⟨0, _⟩ => ⟨S16x16384x128, .f32⟩
  | .hbm, ⟨1, _⟩ => ⟨S16x16384, .i32⟩
  | .hbm, ⟨2, _⟩ => ⟨S16x16384x1, .i32⟩
  | .hbm, ⟨3, _⟩ => ⟨S32, .i32⟩
  | .hbm, ⟨4, _⟩ => ⟨S1x1x32, .i32⟩
  | .hbm, ⟨5, _⟩ => ⟨S16x16384x32, .i32⟩
  | .hbm, ⟨6, _⟩ => ⟨S16x16384x32, .i32⟩
  | .hbm, ⟨7, _⟩ => ⟨S16x16384x32, .i1⟩
  | .hbm, ⟨8, _⟩ => ⟨S16x16384x32, .f32⟩
  | .hbm, ⟨9, _⟩ => ⟨S_, .f32⟩
  | .hbm, ⟨10, _⟩ => ⟨S16x32, .f32⟩
  | .hbm, ⟨11, _⟩ => ⟨S16x32x128, .f32⟩
  | .hbm, ⟨12, _⟩ => ⟨S_, .f32⟩
  | .hbm, ⟨13, _⟩ => ⟨S16x32, .f32⟩
  | .hbm, ⟨14, _⟩ => ⟨S16x32, .f32⟩
  | .hbm, ⟨15, _⟩ => ⟨S16x32x1, .f32⟩
  | .hbm, ⟨16, _⟩ => ⟨S16x32x128, .f32⟩
  | .hbm, ⟨17, _⟩ => ⟨S16x32x128, .f32⟩
  | .hbm, ⟨18, _⟩ => ⟨S16x32x32, .f32⟩
  | .hbm, ⟨19, _⟩ => ⟨S16x32x32, .f32⟩
  | .hbm, ⟨20, _⟩ => ⟨S_, .f32⟩
  | .hbm, ⟨21, _⟩ => ⟨S32x32, .f32⟩
  | .hbm, ⟨22, _⟩ => ⟨S32x32, .i32⟩
  | .hbm, ⟨23, _⟩ => ⟨S_, .i32⟩
  | .hbm, ⟨24, _⟩ => ⟨S32x32, .i32⟩
  | .hbm, ⟨25, _⟩ => ⟨S32x32, .i32⟩
  | .hbm, ⟨26, _⟩ => ⟨S32x32, .i32⟩
  | .hbm, ⟨27, _⟩ => ⟨S32x32, .i1⟩
  | .hbm, ⟨28, _⟩ => ⟨S_, .f32⟩
  | .hbm, ⟨29, _⟩ => ⟨S32x32, .f32⟩
  | .hbm, ⟨30, _⟩ => ⟨S32x32, .f32⟩
  | .hbm, ⟨31, _⟩ => ⟨S1x32x32, .f32⟩
  | .hbm, ⟨32, _⟩ => ⟨S16x32x32, .f32⟩
  | .hbm, ⟨33, _⟩ => ⟨S16x32x32, .f32⟩
  | .hbm, ⟨34, _⟩ => ⟨S_, .f32⟩
  | .hbm, ⟨35, _⟩ => ⟨S16, .f32⟩
  | .hbm, ⟨36, _⟩ => ⟨S_, .f32⟩
  | .hbm, ⟨37, _⟩ => ⟨S16x32, .f32⟩
  | .hbm, ⟨38, _⟩ => ⟨S16x32, .i1⟩
  | .hbm, ⟨39, _⟩ => ⟨S16x32, .i32⟩
  | .hbm, ⟨40, _⟩ => ⟨S_, .i32⟩
  | .hbm, ⟨41, _⟩ => ⟨S16, .i32⟩
  | .hbm, ⟨42, _⟩ => ⟨S16, .f32⟩
  | .hbm, ⟨43, _⟩ => ⟨S_, .f32⟩
  | .hbm, ⟨44, _⟩ => ⟨S16, .f32⟩
  | .hbm, ⟨45, _⟩ => ⟨S16, .i1⟩
  | .hbm, ⟨46, _⟩ => ⟨S_, .f32⟩
  | .hbm, ⟨47, _⟩ => ⟨S16, .f32⟩
  | .hbm, ⟨48, _⟩ => ⟨S16, .f32⟩
  | .hbm, ⟨49, _⟩ => ⟨S16, .f32⟩
  | .hbm, ⟨50, _⟩ => ⟨S_, .f32⟩
  | .hbm, ⟨51, _⟩ => ⟨S16, .f32⟩
  | .hbm, ⟨52, _⟩ => ⟨S16, .f32⟩
  | .hbm, ⟨53, _⟩ => ⟨S_, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S16, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | _, _ => ⟨S16x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_call0_v0 : Ref sig .tc := ⟨.hbm, 22, rfl⟩
abbrev main_call0_c : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_cst : Ref sig .tc := ⟨.hbm, 28, rfl⟩
abbrev main_call0_v5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_call1_v0 : Ref sig .tc := ⟨.hbm, 54, rfl⟩
abbrev main_call1_v1 : Ref sig .tc := ⟨.hbm, 55, rfl⟩
abbrev main_v34 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_cst_9 : Ref sig .tc := ⟨.hbm, 60, rfl⟩
abbrev main_v37 : Ref sig .tc := ⟨.hbm, 61, rfl⟩

abbrev nD : Nat := 1
abbrev τ : Topo := Topo.v7x

variable {F : FTy → Type} [FloatOps F]

class Facts₀ : Prop where
  bcast_S16x16384_S16x16384x1_0_1 : S16x16384.BroadcastsInDim S16x16384x1 (![0, 1] : Fin 2 → Fin S16x16384x1.rank)
  bcast_S32_S1x1x32_2 : S32.BroadcastsInDim S1x1x32 (![2] : Fin 1 → Fin S1x1x32.rank)
  bcast_S16x16384x1_S16x16384x32_0_1_2 : S16x16384x1.BroadcastsInDim S16x16384x32 (![0, 1, 2] : Fin 3 → Fin S16x16384x32.rank)
  bcast_S1x1x32_S16x16384x32_0_1_2 : S1x1x32.BroadcastsInDim S16x16384x32 (![0, 1, 2] : Fin 3 → Fin S16x16384x32.rank)
  reducesTo_S16x16384x32_S16x32_d1 : S16x16384x32.ReducesTo [1] S16x32
  h_S_ : 0 < S_.numel
  bcast_S_S16x32 : S_.BroadcastsInDim S16x32 (![] : Fin 0 → Fin S16x32.rank)
  bcast_S16x32_S16x32x1_0_1 : S16x32.BroadcastsInDim S16x32x1 (![0, 1] : Fin 2 → Fin S16x32x1.rank)
  bcast_S16x32x1_S16x32x128_0_1_2 : S16x32x1.BroadcastsInDim S16x32x128 (![0, 1, 2] : Fin 3 → Fin S16x32x128.rank)
  bcast_S_S32x32 : S_.BroadcastsInDim S32x32 (![] : Fin 0 → Fin S32x32.rank)
  bcast_S32x32_S1x32x32_1_2 : S32x32.BroadcastsInDim S1x32x32 (![1, 2] : Fin 2 → Fin S1x32x32.rank)
  bcast_S1x32x32_S16x32x32_0_1_2 : S1x32x32.BroadcastsInDim S16x32x32 (![0, 1, 2] : Fin 3 → Fin S16x32x32.rank)
  reducesTo_S16x32x32_S16_d1_2 : S16x32x32.ReducesTo [1, 2] S16
  natLt_1_32 : 1 < 32
  reducesTo_S16x32_S16_d1 : S16x32.ReducesTo [1] S16
  bcast_S_S16 : S_.BroadcastsInDim S16 (![] : Fin 0 → Fin S16.rank)
  reducesTo_S16_S_d0 : S16.ReducesTo [0] S_
  dot_S16x16384x32_S16x16384x128_S16x32x128_1_1_2_2_0_0_wf : DotDims.WF S16x16384x32 S16x16384x128 S16x32x128 [1] [1] [2] [2] [0] [0]
  dot_S16x32x128_S16x32x128_S16x32x32_2_2_1_1_0_0_wf : DotDims.WF S16x32x128 S16x32x128 S16x32x32 [2] [2] [1] [1] [0] [0]

variable [Facts₀]

def dot_S16x16384x32_S16x16384x128_S16x32x128_1_1_2_2_0_0 : DotDims S16x16384x32 S16x16384x128 S16x32x128 where
  lhsContracting := [1]
  rhsContracting := [1]
  lhsNonContracting := [2]
  rhsNonContracting := [2]
  lhsBatch := [0]
  rhsBatch := [0]
  wf := dot_S16x16384x32_S16x16384x128_S16x32x128_1_1_2_2_0_0_wf
def dot_S16x32x128_S16x32x128_S16x32x32_2_2_1_1_0_0 : DotDims S16x32x128 S16x32x128 S16x32x32 where
  lhsContracting := [2]
  rhsContracting := [2]
  lhsNonContracting := [1]
  rhsNonContracting := [1]
  lhsBatch := [0]
  rhsBatch := [0]
  wf := dot_S16x32x128_S16x32x128_S16x32x32_2_2_1_1_0_0_wf

class Facts : Prop extends Facts₀ where

variable [Facts]
-- ==== Proof.KernelPieces.lean ====
/-
  What one run of the kernel body leaves in its two output blocks, as values.

  The body has two cases.  At the first tile of a batch chunk it stores a block of zeros into each output, reads
  it back, and stores "what it read plus the tile's contribution".  At every later tile it reads what the tile
  before left and stores that plus the tile's contribution.  In both cases the last store to each output covers
  the whole block, so the block ends holding that store's value: the update applied to zeros, or to the block
  the tile before left.
-/
import proofs.«132069_j41223096107180_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

theorem origin2 : (![0, 0] : Fin 2 → Nat) = fun _ => 0 := funext fun a => by fin_cases a <;> rfl
theorem origin3 : (![0, 0, 0] : Fin 3 → Nat) = fun _ => 0 := funext fun a => by fin_cases a <;> rfl

/-- A later tile leaves in the counts' block the counts' update of what the tile before left. -/
theorem counts_later (c : Dev nD) (i : grid0.Coords) (arg2 : Memref sig .tc .vmem S8x2048x128 .f32) (harg2 : arg2.IsWhole) (arg3 : Memref sig .tc .vmem S8x2048 .i32) (harg3 : arg3.IsWhole) (arg4 : Memref sig .tc .vmem S8x32x128 .f32) (harg4 : arg4.IsWhole) (arg5 : Memref sig .tc .vmem S8x32 .f32) (harg5 : arg5.IsWhole) (hc0 : ¬cond0_0 i)
    (x0 : Vec F S8x2048x128 .f32) (x1 : Vec F S8x2048 .i32) (xo2 : Vec F S8x32x128 .f32) (xo3 : Vec F S8x32 .f32) :
    out0_B_3 c i arg2 harg2 arg3 harg3 arg4 harg4 arg5 harg5 hc0 x0 x1 xo2 xo3 = k0_pay4 x1 xo3 := by
  unfold out0_B_3
  rw [View.read_writes_eq_canon _ _ _ (cover0_B_3 c i arg2 harg2 arg3 harg3 arg4 harg4 arg5 harg5 hc0 x0 x1 xo2 xo3)]
  unfold kernelRun0_B
  dsimp only
  sl_unfold_words
  rw [View.canon_unit_zero origin2]
  simp only [View.readAt_eq_ld, harg2.read_unread, harg3.read_unread, harg4.read_unread, harg5.read_unread,
    View.ld_unit_zero (S := S8x2048) origin2, View.ld_unit_zero (S := S8x32) origin2]

/-- A later tile leaves in the totals' block the totals' update of what the tile before left. -/
theorem totals_later (c : Dev nD) (i : grid0.Coords) (arg2 : Memref sig .tc .vmem S8x2048x128 .f32) (harg2 : arg2.IsWhole) (arg3 : Memref sig .tc .vmem S8x2048 .i32) (harg3 : arg3.IsWhole) (arg4 : Memref sig .tc .vmem S8x32x128 .f32) (harg4 : arg4.IsWhole) (arg5 : Memref sig .tc .vmem S8x32 .f32) (harg5 : arg5.IsWhole) (hc0 : ¬cond0_0 i)
    (x0 : Vec F S8x2048x128 .f32) (x1 : Vec F S8x2048 .i32) (xo2 : Vec F S8x32x128 .f32) (xo3 : Vec F S8x32 .f32) :
    out0_B_2 c i arg2 harg2 arg3 harg3 arg4 harg4 arg5 harg5 hc0 x0 x1 xo2 xo3 = k0_pay5 x1 x0 xo2 := by
  unfold out0_B_2
  rw [View.read_writes_eq_canon _ _ _ (cover0_B_2 c i arg2 harg2 arg3 harg3 arg4 harg4 arg5 harg5 hc0 x0 x1 xo2 xo3)]
  unfold kernelRun0_B
  dsimp only
  sl_unfold_words
  rw [View.canon_unit_zero origin3]
  simp only [View.readAt_eq_ld, harg2.read_unread, harg3.read_unread, harg4.read_unread, harg5.read_unread,
    View.ld_unit_zero (S := S8x2048) origin2, View.ld_unit_zero (S := S8x2048x128) origin3,
    View.ld_unit_zero (S := S8x32x128) origin3]

/-- The first tile leaves in the counts' block the counts' update of the block of zeros. -/
theorem counts_first (c : Dev nD) (i : grid0.Coords) (arg2 : Memref sig .tc .vmem S8x2048x128 .f32) (harg2 : arg2.IsWhole) (arg3 : Memref sig .tc .vmem S8x2048 .i32) (harg3 : arg3.IsWhole) (arg4 : Memref sig .tc .vmem S8x32x128 .f32) (harg4 : arg4.IsWhole) (arg5 : Memref sig .tc .vmem S8x32 .f32) (harg5 : arg5.IsWhole) (hc0 : cond0_0 i)
    (x0 : Vec F S8x2048x128 .f32) (x1 : Vec F S8x2048 .i32) :
    out0_A_3 c i arg2 harg2 arg3 harg3 arg4 harg4 arg5 harg5 hc0 x0 x1 = k0_pay4 x1 (k0_pay2 (F := F)) := by
  unfold out0_A_3
  rw [View.read_writes_eq_canon _ _ _ (cover0_A_3 c i arg2 harg2 arg3 harg3 arg4 harg4 arg5 harg5 hc0 x0 x1)]
  unfold kernelRun0_A
  dsimp only
  sl_unfold_words
  rw [View.canon_cons_unit_zero (S := S8x32) origin2]
  simp only [View.readAt_eq_ld, harg2.read_unread, harg3.read_unread,
    View.readCov_unit_zero (S := S8x32) _ origin2, View.ld_unit_zero (S := S8x2048) origin2]

/-- The first tile leaves in the totals' block the totals' update of the block of zeros. -/
theorem totals_first (c : Dev nD) (i : grid0.Coords) (arg2 : Memref sig .tc .vmem S8x2048x128 .f32) (harg2 : arg2.IsWhole) (arg3 : Memref sig .tc .vmem S8x2048 .i32) (harg3 : arg3.IsWhole) (arg4 : Memref sig .tc .vmem S8x32x128 .f32) (harg4 : arg4.IsWhole) (arg5 : Memref sig .tc .vmem S8x32 .f32) (harg5 : arg5.IsWhole) (hc0 : cond0_0 i)
    (x0 : Vec F S8x2048x128 .f32) (x1 : Vec F S8x2048 .i32) :
    out0_A_2 c i arg2 harg2 arg3 harg3 arg4 harg4 arg5 harg5 hc0 x0 x1 = k0_pay5 x1 x0 (k0_pay1 (F := F)) := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_cons_unit_zero (S := S8x32x128) origin3]
  simp only [View.readAt_eq_ld, harg2.read_unread, harg3.read_unread,
    View.readCov_unit_zero (S := S8x32x128) _ origin3, View.ld_unit_zero (S := S8x2048) origin2,
    View.ld_unit_zero (S := S8x2048x128) origin3]

end Cert.KernelIdeal.Pieces

end
-- ==== Proof.LibBlockSum.lean ====
/-
  A sum over `Fin (B * R)` read block by block: the index `i` is `b * R + r` for exactly one block `b : Fin B`
  and one offset `r : Fin R`, so summing the blocks' sums is summing everything.  Stated in any commutative
  additive monoid (the extended reals are one: no finiteness is needed to regroup a sum).
-/
import Mathlib.Algebra.BigOperators.Fin
import Mathlib.Logic.Equiv.Fin.Basic

namespace Cert.Lib

/-- `∑ b, ∑ r, g (b * R + r) = ∑ i, g i` over `Fin (B * R)`, the index built by `finProdFinEquiv`
    (whose value is `r + R * b`). -/
theorem sum_blocks {M : Type*} [AddCommMonoid M] (B R : ℕ) (g : Fin (B * R) → M) :
    ∑ b : Fin B, ∑ r : Fin R, g (finProdFinEquiv (b, r)) = ∑ i : Fin (B * R), g i := by
  rw [← Fintype.sum_prod_type' (f := fun b r => g (finProdFinEquiv (b, r)))]
  exact Equiv.sum_comp finProdFinEquiv g

/-- The same with the block's entry named by its value: any `idx b r` whose value is `b * R + r`. -/
theorem sum_blocks_val {M : Type*} [AddCommMonoid M] (B R : ℕ) (g : Fin (B * R) → M)
    (idx : Fin B → Fin R → Fin (B * R)) (hidx : ∀ b r, (idx b r).val = b.val * R + r.val) :
    ∑ b : Fin B, ∑ r : Fin R, g (idx b r) = ∑ i : Fin (B * R), g i := by
  rw [← sum_blocks B R g]
  refine Finset.sum_congr rfl fun b _ => Finset.sum_congr rfl fun r _ => congrArg g (Fin.ext ?_)
  rw [hidx]; simp [finProdFinEquiv, Nat.mul_comm, Nat.add_comm]

/-- The same over `Fin N` with `N = B * R` given as an equation (so that `N` may be a literal). -/
theorem sum_blocks_of_eq {M : Type*} [AddCommMonoid M] {B R N : ℕ} (hN : B * R = N) (g : Fin N → M)
    (idx : Fin B → Fin R → Fin N) (hidx : ∀ b r, (idx b r).val = b.val * R + r.val) :
    ∑ b : Fin B, ∑ r : Fin R, g (idx b r) = ∑ i : Fin N, g i := by
  subst hN
  exact sum_blocks_val B R g idx hidx

end Cert.Lib
-- ==== Proof.SegSpec.lean ====
/-
  What both programs compute before their common tail, as functions of the two argument arrays
  `x : [16, 16384, 128]` (floats, read as extended reals) and `ids : [16, 16384]` (32-bit words).

  For a batch `b`, a cluster `c` and a lane `d`:
    count b c   = ∑ₙ [ids b n = c]
    total b c d = ∑ₙ [ids b n = c] · x b n d
  the sums over all 16384 positions `n`, the bracket the indicator `1` or `0` of "position `n` of batch `b`
  is labelled `c`".  Both are finite sums in the commutative monoid of the extended reals, so they may be taken
  in any grouping: in particular tile by tile, 8 tiles of 2048 positions.
-/
import Idealize.ShloMosaic.PureOps.Ideal
import Idealize.ShloMosaic.Lib.ValueIdx
import proofs.«132069_j41223096107180_2_alg».proof.Proof.LibBlockSum

noncomputable section

namespace Cert.Seg

open Idealize.ShloMosaic Idealize.ShloMosaic.ValueIdx

/-- The indicator of "the word `w` is the cluster number `c`", as an extended real: `1` if the 32-bit word `w`
    equals `c` (as a 32-bit word), else `0` — the one-bit result of the comparison read as a natural number. -/
def ind (w : BitVec 32) (c : ℕ) : EReal := (((IntOp.cmpi .eq w (BitVec.ofNat 32 c)).toNat : ℝ) : EReal)

/-- A one-bit word widened to 32 bits and read as a SIGNED integer is the bit itself (`0` or `1`): the sign
    bit of the widened word is clear.  So converting the widened bit as signed, or the bit itself as unsigned,
    to a float gives the same extended real. -/
theorem signed_widened_bit (x : BitVec 1) :
    ((((x.setWidth 32 : BitVec 32).toInt : ℤ) : ℝ) : EReal) = (((x.toNat : ℕ) : ℝ) : EReal) := by
  have h : (x.setWidth 32 : BitVec 32).toInt = (x.toNat : ℤ) := by revert x; decide
  rw [h]; norm_cast

/-- The number of positions of batch `i 0` labelled `i 1`. -/
def count (ids : (⟨2, ![16, 16384]⟩ : Shape).Idx → BitVec 32) : (⟨2, ![16, 32]⟩ : Shape).Idx → EReal :=
  fun i => ∑ n : Fin 16384, ind (ids (ix2 (i 0) n)) (i 1).val

/-- Lane `i 2` of the sum of the rows of batch `i 0` labelled `i 1`. -/
def total (x : (⟨3, ![16, 16384, 128]⟩ : Shape).Idx → EReal) (ids : (⟨2, ![16, 16384]⟩ : Shape).Idx → BitVec 32) :
    (⟨3, ![16, 32, 128]⟩ : Shape).Idx → EReal :=
  fun i => ∑ n : Fin 16384, ind (ids (ix2 (i 0) n)) (i 1).val * x (ix3 (i 0) n (i 2))

/-- Position `r` of tile `j` (8 tiles of 2048 positions). -/
abbrev pos (j : Fin 8) (r : Fin 2048) : Fin 16384 := ⟨j.val * 2048 + r.val, by have := j.isLt; have := r.isLt; omega⟩

/-- A sum over the 16384 positions, taken tile by tile. -/
theorem sum_tiles (g : Fin 16384 → EReal) : ∑ j : Fin 8, ∑ r : Fin 2048, g (pos j r) = ∑ n : Fin 16384, g n :=
  Cert.Lib.sum_blocks_of_eq (B := 8) (R := 2048) (N := 16384) (by norm_num) g pos (fun _ _ => rfl)

end Cert.Seg

end
-- ==== Proof.KernelTile.lean ====
/-
  The kernel body's arithmetic at one grid point, read entry by entry over the extended reals.

  The body holds a block `ids : [8, 2048]` of labels and a block `x : [8, 2048, 128]` of rows.  It forms the
  indicator array `onehot b r c = [ids b r = c]` (`[8, 2048, 32]`), adds to the running counts `[8, 32]` the sum of
  `onehot` over the 2048 positions, and adds to the running totals `[8, 32, 128]` the product
  `∑ᵣ onehot b r c · x b r d` (a batched matrix product contracting the position axis, into a zero accumulator).
  Rounding to bf16 before the product is the identity on extended reals.
-/
import proofs.«132069_j41223096107180_2_alg».proof.Proof.Gen.KernelIdeal.Skeleton
import proofs.«132069_j41223096107180_2_alg».proof.Proof.SegSpec
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx Cert.Seg

/-- The labels' block with a trailing unit axis added and then repeated along 32 clusters, read at `(b, r, c)`,
    is the label at `(b, r)`. -/
theorem ids_spread (v3 : IVec S8x2048 32) (b : Fin 8) (r : Fin 2048) (c : Fin 32) :
    broadcastTo S8x2048x32 (shapeCast S8x2048x1 v3 shapeCasts_S8x2048_S8x2048x1) broadcasts_S8x2048x1_S8x2048x32 (ix3 b r c)
      = v3 (ix2 b r) := by
  refine (broadcastTo_apply _ broadcasts_S8x2048x1_S8x2048x32 (ix3 b r c) (ix3 b r (0 : Fin 1)) (fun a => ?_)).trans ?_
  · match a with
    | ⟨0, _⟩ => show b.val = if (8 : Nat) = 1 then 0 else b.val; rw [if_neg (by decide)]
    | ⟨1, _⟩ => show r.val = if (2048 : Nat) = 1 then 0 else r.val; rw [if_neg (by decide)]
    | ⟨2, _⟩ => show (0 : Nat) = if (1 : Nat) = 1 then 0 else c.val; rw [if_pos rfl]
  · refine shapeCast_apply v3 shapeCasts_S8x2048_S8x2048x1 (ix3 b r (0 : Fin 1)) (ix2 b r) ?_
    rw [Shape.rowMajor_val_two, Shape.rowMajor_val_three]
    show b.val * 2048 + r.val = (b.val * 2048 + r.val) * 1 + 0
    omega

/-- The indicator array at `(b, r, c)`: `1` if position `r` of row `b` is labelled `c`, else `0`. -/
theorem onehot_apply (v3 : IVec S8x2048 32) (b : Fin 8) (r : Fin 2048) (c : Fin 32) :
    k0_pay3 (F := Ideal) v3 (ix3 b r c) = ind (v3 (ix2 b r)) c.val := by
  unfold k0_pay3
  show FloatOps.sitofp (F := Ideal) .f32 ((IntOp.cmpi .eq
      (broadcastTo S8x2048x32 (shapeCast S8x2048x1 v3 shapeCasts_S8x2048_S8x2048x1) broadcasts_S8x2048x1_S8x2048x32 (ix3 b r c))
      (iota .tc S8x2048x32 32 [2] iota_S8x2048x32_d2_w32 (ix3 b r c))).setWidth 32) = _
  rw [ids_spread, iota_single_apply]
  exact signed_widened_bit _

/-- The position axis of `(b, ·, c)`: the index the lane sum inserts. -/
theorem lift_pos (b : Fin 8) (c : Fin 32) (r : Fin 2048) :
    reduces_S8x2048x32_S8x32.lift (ix2 b c) r = ix3 b r c :=
  funext fun a => Fin.ext (by match a with | ⟨0, _⟩ => rfl | ⟨1, _⟩ => rfl | ⟨2, _⟩ => rfl)

/-- The counts' update at `(b, c)`: what was there plus the number of the tile's positions of row `b` labelled `c`. -/
theorem counts_step (v3 : IVec S8x2048 32) (v10 : FVec Ideal S8x32 .f32) (b : Fin 8) (c : Fin 32) :
    k0_pay4 (F := Ideal) v3 v10 (ix2 b c) = v10 (ix2 b c) + ∑ r : Fin 2048, ind (v3 (ix2 b r)) c.val := by
  unfold k0_pay4
  show (shapeCast S8x32 v10 shapeCasts_S8x32_S8x32 (ix2 b c) : EReal)
      + multiReduction (F := Ideal) .add [1] S8x32 (k0_pay3 (F := Ideal) v3) 0x00000000#32 reduces_S8x2048x32_S8x32 (.inl rfl) rfl (ix2 b c) = _
  rw [shapeCast_self]
  refine congrArg (v10 (ix2 b c) + ·) ?_
  refine (Ideal.multiReduction_add_single (k0_pay3 (F := Ideal) v3) 0x00000000#32 reduces_S8x2048x32_S8x32 (.inl rfl) rfl (ix2 b c)).trans ?_
  show ∑ r : Fin 2048, k0_pay3 (F := Ideal) v3 (reduces_S8x2048x32_S8x32.lift (ix2 b c) r)
      = ∑ r : Fin 2048, ind (v3 (ix2 b r)) c.val
  refine Finset.sum_congr rfl fun r _ => ?_
  exact (congrArg (k0_pay3 (F := Ideal) v3) (lift_pos b c r)).trans (onehot_apply v3 b r c)

/-! ## The batched product `∑ᵣ onehot b r c · x b r d`

The product's dimension numbers: batch axis 0 of both operands, contracted axis 1 of both (the 2048 positions),
free axis 2 of each (clusters on the left, lanes on the right).  So at the result entry `(b, c, d)` and contraction
coordinate `r` the left operand is read at `(b, r, c)` and the right at `(b, r, d)`. -/

theorem prod_left_0 (i : S8x32x128.Idx) (q : dot_S8x2048x32_S8x2048x128_S8x32x128_1_1_2_2_0_0.contr.Idx) :
    (dot_S8x2048x32_S8x2048x128_S8x32x128_1_1_2_2_0_0.lhsIdx i q 0).val = (i 0).val := by
  unfold DotDims.lhsIdx
  rw [dif_pos (show (0 : Fin S8x2048x32.rank) ∈ dot_S8x2048x32_S8x2048x128_S8x32x128_1_1_2_2_0_0.lhsBatch by decide)]
  rfl
theorem prod_left_1 (i : S8x32x128.Idx) (q : dot_S8x2048x32_S8x2048x128_S8x32x128_1_1_2_2_0_0.contr.Idx) :
    (dot_S8x2048x32_S8x2048x128_S8x32x128_1_1_2_2_0_0.lhsIdx i q 1).val = (q ⟨0, by decide⟩).val :=
  dot_S8x2048x32_S8x2048x128_S8x32x128_1_1_2_2_0_0.lhsIdx_val_of_single rfl i q
theorem prod_left_2 (i : S8x32x128.Idx) (q : dot_S8x2048x32_S8x2048x128_S8x32x128_1_1_2_2_0_0.contr.Idx) :
    (dot_S8x2048x32_S8x2048x128_S8x32x128_1_1_2_2_0_0.lhsIdx i q 2).val = (i 1).val := by
  unfold DotDims.lhsIdx
  rw [dif_neg (show ¬(2 : Fin S8x2048x32.rank) ∈ dot_S8x2048x32_S8x2048x128_S8x32x128_1_1_2_2_0_0.lhsBatch by decide),
    dif_pos (show (2 : Fin S8x2048x32.rank) ∈ dot_S8x2048x32_S8x2048x128_S8x32x128_1_1_2_2_0_0.lhsNonContracting by decide)]
  rfl
theorem prod_right_0 (i : S8x32x128.Idx) (q : dot_S8x2048x32_S8x2048x128_S8x32x128_1_1_2_2_0_0.contr.Idx) :
    (dot_S8x2048x32_S8x2048x128_S8x32x128_1_1_2_2_0_0.rhsIdx i q 0).val = (i 0).val := by
  unfold DotDims.rhsIdx
  rw [dif_pos (show (0 : Fin S8x2048x128.rank) ∈ dot_S8x2048x32_S8x2048x128_S8x32x128_1_1_2_2_0_0.rhsBatch by decide)]
  rfl
theorem prod_right_1 (i : S8x32x128.Idx) (q : dot_S8x2048x32_S8x2048x128_S8x32x128_1_1_2_2_0_0.contr.Idx) :
    (dot_S8x2048x32_S8x2048x128_S8x32x128_1_1_2_2_0_0.rhsIdx i q 1).val = (q ⟨0, by decide⟩).val :=
  dot_S8x2048x32_S8x2048x128_S8x32x128_1_1_2_2_0_0.rhsIdx_val_of_single rfl i q
theorem prod_right_2 (i : S8x32x128.Idx) (q : dot_S8x2048x32_S8x2048x128_S8x32x128_1_1_2_2_0_0.contr.Idx) :
    (dot_S8x2048x32_S8x2048x128_S8x32x128_1_1_2_2_0_0.rhsIdx i q 2).val = (i 2).val := by
  unfold DotDims.rhsIdx
  rw [dif_neg (show ¬(2 : Fin S8x2048x128.rank) ∈ dot_S8x2048x32_S8x2048x128_S8x32x128_1_1_2_2_0_0.rhsBatch by decide),
    dif_pos (show (2 : Fin S8x2048x128.rank) ∈ dot_S8x2048x32_S8x2048x128_S8x32x128_1_1_2_2_0_0.rhsNonContracting by decide)]
  rfl

/-- The product into a zero accumulator at `(b, c, d)`, for any two operands: the sum over the 2048 positions. -/
theorem prod_apply (l : FVec Ideal S8x2048x32 .bf16) (x : FVec Ideal S8x2048x128 .bf16) (b : Fin 8) (c : Fin 32) (d : Fin 128) :
    FloatOps.matmul (F := Ideal) dot_S8x2048x32_S8x2048x128_S8x32x128_1_1_2_2_0_0 none l x (constant S8x32x128 .f32 0x00000000#32) (ix3 b c d)
      = ∑ r : Fin 2048, l (ix3 b r c) * x (ix3 b r d) := by
  rw [Ideal.matmul_constant_zero_apply,
    ← Equiv.sum_comp (ValueIdx.contrEquiv1 dot_S8x2048x32_S8x2048x128_S8x32x128_1_1_2_2_0_0 2048 rfl rfl).symm]
  refine Finset.sum_congr rfl fun k _ => ?_
  have hk := ValueIdx.contrEquiv1_symm_val dot_S8x2048x32_S8x2048x128_S8x32x128_1_1_2_2_0_0 2048 rfl rfl k
  have el : dot_S8x2048x32_S8x2048x128_S8x32x128_1_1_2_2_0_0.lhsIdx (ix3 b c d)
      ((ValueIdx.contrEquiv1 dot_S8x2048x32_S8x2048x128_S8x32x128_1_1_2_2_0_0 2048 rfl rfl).symm k) = ix3 b k c :=
    funext fun a => Fin.ext (by
      match a with
      | ⟨0, _⟩ => exact prod_left_0 _ _
      | ⟨1, _⟩ => exact (prod_left_1 _ _).trans hk
      | ⟨2, _⟩ => exact prod_left_2 _ _)
  have er : dot_S8x2048x32_S8x2048x128_S8x32x128_1_1_2_2_0_0.rhsIdx (ix3 b c d)
      ((ValueIdx.contrEquiv1 dot_S8x2048x32_S8x2048x128_S8x32x128_1_1_2_2_0_0 2048 rfl rfl).symm k) = ix3 b k d :=
    funext fun a => Fin.ext (by
      match a with
      | ⟨0, _⟩ => exact prod_right_0 _ _
      | ⟨1, _⟩ => exact (prod_right_1 _ _).trans hk
      | ⟨2, _⟩ => exact prod_right_2 _ _)
  rw [el, er]

/-- The totals' update at `(b, c, d)`: what was there plus lane `d` of the sum of the tile's rows of batch row `b`
    labelled `c`. -/
theorem totals_step (v3 : IVec S8x2048 32) (v16 : FVec Ideal S8x2048x128 .f32) (v19 : FVec Ideal S8x32x128 .f32)
    (b : Fin 8) (c : Fin 32) (d : Fin 128) :
    k0_pay5 (F := Ideal) v3 v16 v19 (ix3 b c d)
      = v19 (ix3 b c d) + ∑ r : Fin 2048, ind (v3 (ix2 b r)) c.val * v16 (ix3 b r d) := by
  unfold k0_pay5
  show (shapeCast S8x32x128 v19 shapeCasts_S8x32x128_S8x32x128 (ix3 b c d) : EReal)
      + FloatOps.matmul (F := Ideal) dot_S8x2048x32_S8x2048x128_S8x32x128_1_1_2_2_0_0 none
          (truncf .bf16 (k0_pay3 (F := Ideal) v3) bitsLt_bf16_f32) (truncf .bf16 v16 bitsLt_bf16_f32)
          (constant S8x32x128 .f32 0x00000000#32) (ix3 b c d) = _
  rw [shapeCast_self]
  refine congrArg (v19 (ix3 b c d) + ·) ?_
  refine (prod_apply _ _ b c d).trans ?_
  refine Finset.sum_congr rfl fun r _ => ?_
  show k0_pay3 (F := Ideal) v3 (ix3 b r c) * v16 (ix3 b r d) = _
  rw [onehot_apply]

/-- The block of zeros the first tile of a batch chunk starts the counts from, and the totals from. -/
theorem counts_zero (i : S8x32.Idx) : k0_pay2 (F := Ideal) i = 0 := Ideal.ofBits_zero_f32
theorem totals_zero (i : S8x32x128.Idx) : k0_pay1 (F := Ideal) i = 0 := Ideal.ofBits_zero_f32

end Cert.KernelIdeal.Tile

end
-- ==== Proof.KernelAccum.lean ====
/-
  What the two output blocks hold after each grid point.

  The grid's 16 points are numbered `t = 8·p + j`: batch chunk `p` (8 batches), tile `j` (2048 positions).  Tile
  `j = 0` starts both blocks from zero; every later tile adds its contribution to what the tile before left.  So
  after point `t` the blocks hold the sum of the contributions of the points `8·p, …, t` of the same chunk.
-/
import proofs.«132069_j41223096107180_2_alg».proof.Proof.KernelPieces
import proofs.«132069_j41223096107180_2_alg».proof.Proof.KernelTile

noncomputable section

namespace Cert.KernelIdeal.Accum

open Idealize.ShloMosaic Idealize.ShloMosaic.TcCoe Idealize.SL.Sem Idealize.ShloMosaic.ValueIdx
open Cert.KernelIdeal Cert.KernelIdeal.Gen Cert.Seg

variable (m : (ℓ : Loc nD τ sig) → Buf (Elt Ideal) ℓ)

/-- The labels' block and the rows' block at point `t`. -/
abbrev idsAt (c : Dev nD) (t : Fin cfg0.N) : IVec S8x2048 32 := iblk m c 1 t
abbrev rowsAt (c : Dev nD) (t : Fin cfg0.N) : FVec Ideal S8x2048x128 .f32 := iblk m c 0 t

/-- Point `k`'s contribution to the counts' block at `(b, cl)` (zero for a number that is no point). -/
def tileCount (c : Dev nD) (k : ℕ) (b : Fin 8) (cl : Fin 32) : EReal :=
  if h : k < cfg0.N then ∑ r : Fin 2048, ind (idsAt m c ⟨k, h⟩ (ix2 b r)) cl.val else 0

/-- Point `k`'s contribution to the totals' block at `(b, cl, d)`. -/
def tileTotal (c : Dev nD) (k : ℕ) (b : Fin 8) (cl : Fin 32) (d : Fin 128) : EReal :=
  if h : k < cfg0.N then ∑ r : Fin 2048, ind (idsAt m c ⟨k, h⟩ (ix2 b r)) cl.val * rowsAt m c ⟨k, h⟩ (ix3 b r d) else 0

/-- A sum over the points of a chunk up to a first tile is that tile's term. -/
theorem sum_first (n : ℕ) (h0 : n % 8 = 0) (f : ℕ → EReal) :
    ∑ j ∈ Finset.range (n % 8 + 1), f (n / 8 * 8 + j) = f n := by
  rw [h0, Nat.zero_add, Finset.sum_range_one, Nat.add_zero, Nat.div_mul_cancel (Nat.dvd_of_mod_eq_zero h0)]

/-- A sum over the points of a chunk up to a later tile is the sum up to the tile before plus that tile's term. -/
theorem sum_later (k : ℕ) (h0 : ¬(k + 1) % 8 = 0) (f : ℕ → EReal) :
    ∑ j ∈ Finset.range ((k + 1) % 8 + 1), f ((k + 1) / 8 * 8 + j)
      = ∑ j ∈ Finset.range (k % 8 + 1), f (k / 8 * 8 + j) + f (k + 1) := by
  have e1 : (k + 1) % 8 = k % 8 + 1 := by omega
  have e2 : (k + 1) / 8 = k / 8 := by omega
  rw [e1, e2, Finset.sum_range_succ (n := k % 8 + 1)]
  refine congrArg (_ + f ·) ?_
  omega

/-- At a first tile both blocks hold that tile's contribution. -/
theorem first_tile (c : Dev nD) (t : Fin cfg0.N) (h0 : t.val % 8 = 0) :
    (∀ (b : Fin 8) (cl : Fin 32), (outsAt0 m c t.val t.isLt).2 (ix2 b cl) = tileCount m c t.val b cl)
    ∧ ∀ (b : Fin 8) (cl : Fin 32) (d : Fin 128), (outsAt0 m c t.val t.isLt).1 (ix3 b cl d) = tileTotal m c t.val b cl d := by
  have e3 : (outsAt0 m c t.val t.isLt).2 = k0_pay4 (F := Ideal) (iblk m c 1 t) (k0_pay2 (F := Ideal)) := by
    rw [outsAt0_A m c t h0]
    dsimp only
    exact Pieces.counts_first (F := Ideal) c (grid0.coords t) (ms0_0 t) (hs0_0 t) (ms0_1 t) (hs0_1 t) (ms0_2 t) (hs0_2 t) (ms0_3 t) (hs0_3 t) ((hcond0_0 t).mpr h0) (iblk m c 0 t) (iblk m c 1 t)
  have e2 : (outsAt0 m c t.val t.isLt).1 = k0_pay5 (F := Ideal) (iblk m c 1 t) (iblk m c 0 t) (k0_pay1 (F := Ideal)) := by
    rw [outsAt0_A m c t h0]
    dsimp only
    exact Pieces.totals_first (F := Ideal) c (grid0.coords t) (ms0_0 t) (hs0_0 t) (ms0_1 t) (hs0_1 t) (ms0_2 t) (hs0_2 t) (ms0_3 t) (hs0_3 t) ((hcond0_0 t).mpr h0) (iblk m c 0 t) (iblk m c 1 t)
  refine ⟨fun b cl => ?_, fun b cl d => ?_⟩
  · refine (congrFun e3 (ix2 b cl)).trans ?_
    refine (Tile.counts_step (idsAt m c t) (k0_pay2 (F := Ideal)) b cl).trans ?_
    rw [Tile.counts_zero, zero_add]
    unfold tileCount
    rw [dif_pos t.isLt]
  · refine (congrFun e2 (ix3 b cl d)).trans ?_
    refine (Tile.totals_step (idsAt m c t) (rowsAt m c t) (k0_pay1 (F := Ideal)) b cl d).trans ?_
    rw [Tile.totals_zero, zero_add]
    unfold tileTotal
    rw [dif_pos t.isLt]

/-- At a later tile both blocks hold what the point before left plus that tile's contribution. -/
theorem later_tile (c : Dev nD) (t : Fin cfg0.N) (h0 : ¬t.val % 8 = 0) :
    (∀ (b : Fin 8) (cl : Fin 32), (outsAt0 m c t.val t.isLt).2 (ix2 b cl)
        = (outsAt0 m c (t.val - 1) (Nat.lt_of_le_of_lt (Nat.sub_le _ _) t.isLt)).2 (ix2 b cl) + tileCount m c t.val b cl)
    ∧ ∀ (b : Fin 8) (cl : Fin 32) (d : Fin 128), (outsAt0 m c t.val t.isLt).1 (ix3 b cl d)
        = (outsAt0 m c (t.val - 1) (Nat.lt_of_le_of_lt (Nat.sub_le _ _) t.isLt)).1 (ix3 b cl d) + tileTotal m c t.val b cl d := by
  have e3 : (outsAt0 m c t.val t.isLt).2 = k0_pay4 (F := Ideal) (iblk m c 1 t)
      (outsAt0 m c (t.val - 1) (Nat.lt_of_le_of_lt (Nat.sub_le _ _) t.isLt)).2 := by
    rw [outsAt0_B m c t h0]
    dsimp only
    exact Pieces.counts_later (F := Ideal) c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t)
      (outsAt0 m c (t.val - 1) (Nat.lt_of_le_of_lt (Nat.sub_le _ _) t.isLt)).1 (outsAt0 m c (t.val - 1) (Nat.lt_of_le_of_lt (Nat.sub_le _ _) t.isLt)).2
  have e2 : (outsAt0 m c t.val t.isLt).1 = k0_pay5 (F := Ideal) (iblk m c 1 t) (iblk m c 0 t)
      (outsAt0 m c (t.val - 1) (Nat.lt_of_le_of_lt (Nat.sub_le _ _) t.isLt)).1 := by
    rw [outsAt0_B m c t h0]
    dsimp only
    exact Pieces.totals_later (F := Ideal) c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t)
      (outsAt0 m c (t.val - 1) (Nat.lt_of_le_of_lt (Nat.sub_le _ _) t.isLt)).1 (outsAt0 m c (t.val - 1) (Nat.lt_of_le_of_lt (Nat.sub_le _ _) t.isLt)).2
  refine ⟨fun b cl => ?_, fun b cl d => ?_⟩
  · refine (congrFun e3 (ix2 b cl)).trans ?_
    refine (Tile.counts_step (idsAt m c t) (outsAt0 m c (t.val - 1) (Nat.lt_of_le_of_lt (Nat.sub_le _ _) t.isLt)).2 b cl).trans ?_
    unfold tileCount
    rw [dif_pos t.isLt]
  · refine (congrFun e2 (ix3 b cl d)).trans ?_
    refine (Tile.totals_step (idsAt m c t) (rowsAt m c t) (outsAt0 m c (t.val - 1) (Nat.lt_of_le_of_lt (Nat.sub_le _ _) t.isLt)).1 b cl d).trans ?_
    unfold tileTotal
    rw [dif_pos t.isLt]

/-- After point `n` the blocks hold the sum of the contributions of the chunk's points up to `n`. -/
theorem running (c : Dev nD) : ∀ (n : ℕ) (h : n < cfg0.N),
    (∀ (b : Fin 8) (cl : Fin 32), (outsAt0 m c n h).2 (ix2 b cl)
        = ∑ j ∈ Finset.range (n % 8 + 1), tileCount m c (n / 8 * 8 + j) b cl)
    ∧ ∀ (b : Fin 8) (cl : Fin 32) (d : Fin 128), (outsAt0 m c n h).1 (ix3 b cl d)
        = ∑ j ∈ Finset.range (n % 8 + 1), tileTotal m c (n / 8 * 8 + j) b cl d := by
  intro n
  induction n with
  | zero =>
    intro h
    have f := first_tile m c ⟨0, h⟩ rfl
    exact ⟨fun b cl => (f.1 b cl).trans (sum_first 0 rfl fun k => tileCount m c k b cl).symm,
      fun b cl d => (f.2 b cl d).trans (sum_first 0 rfl fun k => tileTotal m c k b cl d).symm⟩
  | succ k ih =>
    intro h
    by_cases h0 : (k + 1) % 8 = 0
    · have f := first_tile m c ⟨k + 1, h⟩ h0
      exact ⟨fun b cl => (f.1 b cl).trans (sum_first (k + 1) h0 fun k => tileCount m c k b cl).symm,
        fun b cl d => (f.2 b cl d).trans (sum_first (k + 1) h0 fun k => tileTotal m c k b cl d).symm⟩
    · have f := later_tile m c ⟨k + 1, h⟩ h0
      have p := ih (Nat.lt_of_succ_lt h)
      refine ⟨fun b cl => ?_, fun b cl d => ?_⟩
      · refine (f.1 b cl).trans ?_
        rw [sum_later k h0 fun k => tileCount m c k b cl, ← p.1 b cl]
        rfl
      · refine (f.2 b cl d).trans ?_
        rw [sum_later k h0 fun k => tileTotal m c k b cl d, ← p.2 b cl d]
        rfl

end Cert.KernelIdeal.Accum

end
-- ==== Proof.KernelArrays.lean ====
/-
  The kernel's two result arrays after the launch, as whole-array functions of the two arguments.

  Point `t = 8·p + j` reads rows `8·p … 8·p + 7` of both arguments at positions `2048·j … 2048·j + 2047`, and both
  outputs' blocks are rows `8·p … 8·p + 7` of their arrays, written back after the chunk's last tile (`j = 7`).  By
  then a block holds the contributions of all eight tiles, and the eight tiles' 2048 positions each are all 16384
  positions: so the counts' array ends holding `count` and the totals' array `total` of the arguments.
-/
import proofs.«132069_j41223096107180_2_alg».proof.Proof.KernelAccum

noncomputable section

namespace Cert.KernelIdeal.Arrays

open Idealize.ShloMosaic Idealize.ShloMosaic.TcCoe Idealize.SL.Sem Idealize.ShloMosaic.ValueIdx
open Idealize.ShloMosaic.Pipeline (Dat)
open Cert.KernelIdeal Cert.KernelIdeal.Gen Cert.Seg Cert.KernelIdeal.Accum

variable (m : (ℓ : Loc nD τ sig) → Buf (Elt Ideal) ℓ)

/-- The two argument arrays as the launch finds them. -/
abbrev rows (c : Dev nD) : FVec Ideal S16x16384x128 .f32 := m ((c : Thread nD τ).loc main_arg0)
abbrev labels (c : Dev nD) : IVec S16x16384 32 := m ((c : Thread nD τ).loc main_arg1)

/-- The printed index maps over the grid: chunk `t / 8`, tile `t % 8`. -/
theorem block_indices : ∀ t : Fin cfg0.N,
    win0_0.index t (0 : Fin 3) = t.val / 8 ∧ win0_0.index t (1 : Fin 3) = t.val % 8 ∧ win0_0.index t (2 : Fin 3) = 0
    ∧ win0_1.index t (0 : Fin 2) = t.val / 8 ∧ win0_1.index t (1 : Fin 2) = t.val % 8
    ∧ win0_2.index t (0 : Fin 3) = t.val / 8 ∧ win0_2.index t (1 : Fin 3) = 0 ∧ win0_2.index t (2 : Fin 3) = 0
    ∧ win0_3.index t (0 : Fin 2) = t.val / 8 ∧ win0_3.index t (1 : Fin 2) = 0 :=
  (by decide +kernel : ∀ t : Fin grid0.N, _)

theorem points_lt (t : Fin cfg0.N) : t.val < 16 := lt_of_lt_of_eq t.isLt (show cfg0.N = 16 from N_0)

/-- The labels' block at point `t`, entry `(b, r)`: the label of batch `8·(t/8) + b` at position `2048·(t%8) + r`. -/
theorem labels_block (c : Dev nD) (t : Fin cfg0.N) (b : Fin 8) (r : Fin 2048) (p : Fin 16) (q : Fin 16384)
    (hp : p.val = t.val / 8 * 8 + b.val) (hq : q.val = t.val % 8 * 2048 + r.val) :
    idsAt m c t (ix2 b r) = labels m c (ix2 p q) := by
  obtain ⟨-, -, -, e0, e1, -⟩ := block_indices t
  show V m c main_arg1 (((cfg0.win 1).blk t).view.emb (ix2 b r)) = V m c main_arg1 (ix2 p q)
  refine congrArg (V m c main_arg1) (funext fun a => Fin.ext ?_)
  match a with
  | ⟨0, _⟩ => show win0_1.index t (0 : Fin 2) * 8 + 1 * b.val = p.val; rw [e0, hp]; omega
  | ⟨1, _⟩ => show win0_1.index t (1 : Fin 2) * 2048 + 1 * r.val = q.val; rw [e1, hq]; omega

/-- The rows' block at point `t`, entry `(b, r, d)`. -/
theorem rows_block (c : Dev nD) (t : Fin cfg0.N) (b : Fin 8) (r : Fin 2048) (d : Fin 128) (p : Fin 16) (q : Fin 16384)
    (hp : p.val = t.val / 8 * 8 + b.val) (hq : q.val = t.val % 8 * 2048 + r.val) :
    rowsAt m c t (ix3 b r d) = rows m c (ix3 p q d) := by
  obtain ⟨e0, e1, e2, -⟩ := block_indices t
  show V m c main_arg0 (((cfg0.win 0).blk t).view.emb (ix3 b r d)) = V m c main_arg0 (ix3 p q d)
  refine congrArg (V m c main_arg0) (funext fun a => Fin.ext ?_)
  match a with
  | ⟨0, _⟩ => show win0_0.index t (0 : Fin 3) * 8 + 1 * b.val = p.val; rw [e0, hp]; omega
  | ⟨1, _⟩ => show win0_0.index t (1 : Fin 3) * 2048 + 1 * r.val = q.val; rw [e1, hq]; omega
  | ⟨2, _⟩ => show win0_0.index t (2 : Fin 3) * 128 + 1 * d.val = d.val; rw [e2]; omega

/-- The eight tiles of chunk `s / 8` contribute, to the counts' block at `(b, cl)`, the count of batch `p = 8·(s/8) + b`. -/
theorem chunk_count (c : Dev nD) (s : ℕ) (hs : s < 16) (b : Fin 8) (cl : Fin 32) (p : Fin 16) (hp : p.val = s / 8 * 8 + b.val) :
    ∑ j ∈ Finset.range 8, tileCount m c (s / 8 * 8 + j) b cl = Seg.count (labels m c) (ix2 p cl) := by
  rw [Finset.sum_range]
  show _ = ∑ n : Fin 16384, ind (labels m c (ix2 p n)) cl.val
  rw [← Seg.sum_tiles]
  refine Finset.sum_congr rfl fun j _ => ?_
  have hj : s / 8 * 8 + j.val < cfg0.N := lt_of_lt_of_eq (by have := j.isLt; omega) (show (16 : ℕ) = cfg0.N from N_0.symm)
  unfold tileCount
  rw [dif_pos hj]
  refine Finset.sum_congr rfl fun r _ => ?_
  rw [labels_block m c ⟨s / 8 * 8 + j.val, hj⟩ b r p (pos j r) (by show p.val = (s / 8 * 8 + j.val) / 8 * 8 + b.val; have := j.isLt; omega)
    (by show j.val * 2048 + r.val = (s / 8 * 8 + j.val) % 8 * 2048 + r.val; have := j.isLt; omega)]

/-- … and to the totals' block at `(b, cl, d)` the total of batch `p`. -/
theorem chunk_total (c : Dev nD) (s : ℕ) (hs : s < 16) (b : Fin 8) (cl : Fin 32) (d : Fin 128) (p : Fin 16) (hp : p.val = s / 8 * 8 + b.val) :
    ∑ j ∈ Finset.range 8, tileTotal m c (s / 8 * 8 + j) b cl d = Seg.total (rows m c) (labels m c) (ix3 p cl d) := by
  rw [Finset.sum_range]
  show _ = ∑ n : Fin 16384, ind (labels m c (ix2 p n)) cl.val * rows m c (ix3 p n d)
  rw [← Seg.sum_tiles]
  refine Finset.sum_congr rfl fun j _ => ?_
  have hj : s / 8 * 8 + j.val < cfg0.N := lt_of_lt_of_eq (by have := j.isLt; omega) (show (16 : ℕ) = cfg0.N from N_0.symm)
  unfold tileTotal
  rw [dif_pos hj]
  refine Finset.sum_congr rfl fun r _ => ?_
  have hp' : p.val = (s / 8 * 8 + j.val) / 8 * 8 + b.val := by have := j.isLt; omega
  have hq' : (pos j r).val = (s / 8 * 8 + j.val) % 8 * 2048 + r.val := by
    show j.val * 2048 + r.val = (s / 8 * 8 + j.val) % 8 * 2048 + r.val; have := j.isLt; omega
  rw [labels_block m c ⟨s / 8 * 8 + j.val, hj⟩ b r p (pos j r) hp' hq', rows_block m c ⟨s / 8 * 8 + j.val, hj⟩ b r d p (pos j r) hp' hq']

/-! ## The counts' array (output window 3) -/

set_option maxRecDepth 65536 in
/-- What a chunk's last point writes back is its block of `count`. -/
theorem flushed_counts (c : Dev nD) (t : Fin cfg0.N) (hf : (cfg0.win 3).flush t = true) :
    (dats m 0 c).flushed 3 t = ((cfg0.win 3).blk t).view.read (Elt Ideal) (Seg.count (labels m c)) := by
  have h7 : t.val % 8 = 7 := (flush0_3 t).mp hf
  have ht := points_lt t
  obtain ⟨-, -, -, -, -, -, -, -, e0, e1⟩ := block_indices t
  have entry : ∀ j : S8x32.Idx, (outsAt0 m c t.val t.isLt).2 j = Seg.count (labels m c) (((cfg0.win 3).blk t).view.emb j) := by
    intro j
    obtain ⟨b, cl, rfl⟩ : ∃ (b : Fin 8) (cl : Fin 32), j = ix2 b cl := ⟨j 0, j 1, eq_ix2 j⟩
    have hemb : ((cfg0.win 3).blk t).view.emb (ix2 b cl)
        = (ix2 (⟨t.val / 8 * 8 + b.val, by have := b.isLt; omega⟩ : Fin 16) cl : S16x32.Idx) :=
      funext fun a => Fin.ext (by
        match a with
        | ⟨0, _⟩ => show win0_3.index t (0 : Fin 2) * 8 + 1 * b.val = t.val / 8 * 8 + b.val; rw [e0]; omega
        | ⟨1, _⟩ => show win0_3.index t (1 : Fin 2) * 32 + 1 * cl.val = cl.val; rw [e1]; omega)
    rw [hemb, (running m c t.val t.isLt).1 b cl, h7]
    exact chunk_count m c t.val ht b cl _ rfl
  show (cfg0.win 3).cut (grid0.coords t) ((dats m 0 c).after 3 t) = _
  rw [after0_3]
  funext j
  show (outsAt0 m c t.val t.isLt).2 j = Seg.count (labels m c) (((cfg0.win 3).blk t).view.emb j)
  exact entry j

/-- An entry of the counts' array is in point `t`'s block iff each coordinate is in the block's range. -/
theorem mem_counts_block (t : Fin cfg0.N) (i : S16x32.Idx) :
    i ∈ ((cfg0.win 3).blk t).view.set ↔ ∀ a : Fin 2, win0_3.index t a * S8x32.size a ≤ (i a).val ∧ (i a).val < win0_3.index t a * S8x32.size a + S8x32.size a := by
  show i ∈ ((View.whole main_v0_1).slice (win0_3.rect t)).set ↔ _
  rw [View.set_slice_whole, Rect.mem_set_unit]
  exact Iff.rfl

/-- The counts' array after the launch. -/
theorem final_counts (c : Dev nD) : (dats m 0 c).arrAt 3 cfg0.N = Seg.count (labels m c) :=
  (dats m 0 c).arrAt_eq_of_cover 3 (Seg.count (labels m c)) (flushed_counts m c) fun i => by
    have hi0 : (i 0).val < 16 := (i 0).isLt
    have hi1 : (i 1).val < 32 := (i 1).isLt
    have hN : (i 0).val / 8 * 8 + 7 < cfg0.N := lt_of_lt_of_eq (by omega) (show (16 : ℕ) = cfg0.N from N_0.symm)
    refine ⟨⟨(i 0).val / 8 * 8 + 7, hN⟩, (flush0_3 _).mpr (by show ((i 0).val / 8 * 8 + 7) % 8 = 7; omega), ?_⟩
    obtain ⟨-, -, -, -, -, -, -, -, e0, e1⟩ := block_indices ⟨(i 0).val / 8 * 8 + 7, hN⟩
    rw [mem_counts_block]
    intro a
    match a with
    | ⟨0, _⟩ =>
      show win0_3.index ⟨(i 0).val / 8 * 8 + 7, hN⟩ (0 : Fin 2) * 8 ≤ (i 0).val ∧ (i 0).val < win0_3.index ⟨(i 0).val / 8 * 8 + 7, hN⟩ (0 : Fin 2) * 8 + 8
      rw [e0]; show ((i 0).val / 8 * 8 + 7) / 8 * 8 ≤ (i 0).val ∧ (i 0).val < ((i 0).val / 8 * 8 + 7) / 8 * 8 + 8; omega
    | ⟨1, _⟩ =>
      show win0_3.index ⟨(i 0).val / 8 * 8 + 7, hN⟩ (1 : Fin 2) * 32 ≤ (i 1).val ∧ (i 1).val < win0_3.index ⟨(i 0).val / 8 * 8 + 7, hN⟩ (1 : Fin 2) * 32 + 32
      rw [e1]; omega

/-! ## The totals' array (output window 2) -/

set_option maxRecDepth 65536 in
/-- What a chunk's last point writes back is its block of `total`. -/
theorem flushed_totals (c : Dev nD) (t : Fin cfg0.N) (hf : (cfg0.win 2).flush t = true) :
    (dats m 0 c).flushed 2 t = ((cfg0.win 2).blk t).view.read (Elt Ideal) (Seg.total (rows m c) (labels m c)) := by
  have h7 : t.val % 8 = 7 := (flush0_2 t).mp hf
  have ht := points_lt t
  obtain ⟨-, -, -, -, -, e0, e1, e2, -⟩ := block_indices t
  have entry : ∀ j : S8x32x128.Idx, (outsAt0 m c t.val t.isLt).1 j
      = Seg.total (rows m c) (labels m c) (((cfg0.win 2).blk t).view.emb j) := by
    intro j
    obtain ⟨b, cl, d, rfl⟩ : ∃ (b : Fin 8) (cl : Fin 32) (d : Fin 128), j = ix3 b cl d := ⟨j 0, j 1, j 2, eq_ix3 j⟩
    have hemb : ((cfg0.win 2).blk t).view.emb (ix3 b cl d)
        = (ix3 (⟨t.val / 8 * 8 + b.val, by have := b.isLt; omega⟩ : Fin 16) cl d : S16x32x128.Idx) :=
      funext fun a => Fin.ext (by
        match a with
        | ⟨0, _⟩ => show win0_2.index t (0 : Fin 3) * 8 + 1 * b.val = t.val / 8 * 8 + b.val; rw [e0]; omega
        | ⟨1, _⟩ => show win0_2.index t (1 : Fin 3) * 32 + 1 * cl.val = cl.val; rw [e1]; omega
        | ⟨2, _⟩ => show win0_2.index t (2 : Fin 3) * 128 + 1 * d.val = d.val; rw [e2]; omega)
    rw [hemb, (running m c t.val t.isLt).2 b cl d, h7]
    exact chunk_total m c t.val ht b cl d _ rfl
  show (cfg0.win 2).cut (grid0.coords t) ((dats m 0 c).after 2 t) = _
  rw [after0_2]
  funext j
  show (outsAt0 m c t.val t.isLt).1 j = Seg.total (rows m c) (labels m c) (((cfg0.win 2).blk t).view.emb j)
  exact entry j

/-- An entry of the totals' array is in point `t`'s block iff each coordinate is in the block's range. -/
theorem mem_totals_block (t : Fin cfg0.N) (i : S16x32x128.Idx) :
    i ∈ ((cfg0.win 2).blk t).view.set ↔ ∀ a : Fin 3, win0_2.index t a * S8x32x128.size a ≤ (i a).val ∧ (i a).val < win0_2.index t a * S8x32x128.size a + S8x32x128.size a := by
  show i ∈ ((View.whole main_v0_0).slice (win0_2.rect t)).set ↔ _
  rw [View.set_slice_whole, Rect.mem_set_unit]
  exact Iff.rfl

/-- The totals' array after the launch. -/
theorem final_totals (c : Dev nD) : (dats m 0 c).arrAt 2 cfg0.N = Seg.total (rows m c) (labels m c) :=
  (dats m 0 c).arrAt_eq_of_cover 2 (Seg.total (rows m c) (labels m c)) (flushed_totals m c) fun i => by
    have hi0 : (i 0).val < 16 := (i 0).isLt
    have hi1 : (i 1).val < 32 := (i 1).isLt
    have hi2 : (i 2).val < 128 := (i 2).isLt
    have hN : (i 0).val / 8 * 8 + 7 < cfg0.N := lt_of_lt_of_eq (by omega) (show (16 : ℕ) = cfg0.N from N_0.symm)
    refine ⟨⟨(i 0).val / 8 * 8 + 7, hN⟩, (flush0_2 _).mpr (by show ((i 0).val / 8 * 8 + 7) % 8 = 7; omega), ?_⟩
    obtain ⟨-, -, -, -, -, e0, e1, e2, -⟩ := block_indices ⟨(i 0).val / 8 * 8 + 7, hN⟩
    rw [mem_totals_block]
    intro a
    match a with
    | ⟨0, _⟩ =>
      show win0_2.index ⟨(i 0).val / 8 * 8 + 7, hN⟩ (0 : Fin 3) * 8 ≤ (i 0).val ∧ (i 0).val < win0_2.index ⟨(i 0).val / 8 * 8 + 7, hN⟩ (0 : Fin 3) * 8 + 8
      rw [e0]; show ((i 0).val / 8 * 8 + 7) / 8 * 8 ≤ (i 0).val ∧ (i 0).val < ((i 0).val / 8 * 8 + 7) / 8 * 8 + 8; omega
    | ⟨1, _⟩ =>
      show win0_2.index ⟨(i 0).val / 8 * 8 + 7, hN⟩ (1 : Fin 3) * 32 ≤ (i 1).val ∧ (i 1).val < win0_2.index ⟨(i 0).val / 8 * 8 + 7, hN⟩ (1 : Fin 3) * 32 + 32
      rw [e1]; omega
    | ⟨2, _⟩ =>
      show win0_2.index ⟨(i 0).val / 8 * 8 + 7, hN⟩ (2 : Fin 3) * 128 ≤ (i 2).val ∧ (i 2).val < win0_2.index ⟨(i 0).val / 8 * 8 + 7, hN⟩ (2 : Fin 3) * 128 + 128
      rw [e2]; omega

end Cert.KernelIdeal.Arrays

end
-- ==== Proof.RefRun.lean ====
/-
  The reference program's run, read back: its @main is a straight line of 60 host operations (the two functions it
  calls written out at their call sites), so every weakly fair execution ends with the result at the operations'
  composed value of the two arguments, and the arguments unchanged.

  The composed value is stated in three steps.  From the labels alone: the indicator array
  `onehot b n c = [ids b n = c]`, the per-batch cluster counts (its sum over the positions `n`) and, with `x`, the
  per-batch cluster totals (the product of `onehot` and `x` contracting `n`).  Then `tail`: everything the program
  computes from the totals and the counts — the cluster means `totals / max(counts, 1)`, the absolute Gram matrix of
  the means within each batch, its strictly-upper-triangular sum, the number `v` of non-empty clusters, the divisor
  `v (v − 1) / 2` (or `1` when `v ≤ 1`), and the mean over the 16 batches of the quotients.
-/
import proofs.«132069_j41223096107180_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 60 operations, in program order. -/
abbrev ops : List (HloOp τ sig (Elt F)) :=
  [ unary main_arg1 main_v0 (broadcastInDim S16x16384x1 ![0, 1] bcast_S16x16384_S16x16384x1_0_1 : (⟨S16x16384, .i32⟩ : BufTy).Contents (Elt F) → (⟨S16x16384x1, .i32⟩ : BufTy).Contents (Elt F)),
    nullary main_v1 (iotaInDim S32 32 0),
    unary main_v1 main_v2 (broadcastInDim S1x1x32 ![2] bcast_S32_S1x1x32_2 : (⟨S32, .i32⟩ : BufTy).Contents (Elt F) → (⟨S1x1x32, .i32⟩ : BufTy).Contents (Elt F)),
    unary main_v0 main_v3 (broadcastInDim S16x16384x32 ![0, 1, 2] bcast_S16x16384x1_S16x16384x32_0_1_2 : (⟨S16x16384x1, .i32⟩ : BufTy).Contents (Elt F) → (⟨S16x16384x32, .i32⟩ : BufTy).Contents (Elt F)),
    unary main_v2 main_v4 (broadcastInDim S16x16384x32 ![0, 1, 2] bcast_S1x1x32_S16x16384x32_0_1_2 : (⟨S1x1x32, .i32⟩ : BufTy).Contents (Elt F) → (⟨S16x16384x32, .i32⟩ : BufTy).Contents (Elt F)),
    binary main_v3 main_v4 main_v5 (cmpi .eq : (⟨S16x16384x32, .i32⟩ : BufTy).Contents (Elt F) → (⟨S16x16384x32, .i32⟩ : BufTy).Contents (Elt F) → (⟨S16x16384x32, .i1⟩ : BufTy).Contents (Elt F)),
    unary main_v5 main_v6 (uitofp .f32 : (⟨S16x16384x32, .i1⟩ : BufTy).Contents (Elt F) → (⟨S16x16384x32, .f32⟩ : BufTy).Contents (Elt F)),
    nullary main_cst (constant S_ .f32 0x00000000#32),
    binary main_v6 main_cst main_v7 ((fun x v => Host.reduceAdd x v reducesTo_S16x16384x32_S16x32_d1 h_S_) : (⟨S16x16384x32, .f32⟩ : BufTy).Contents (Elt F) → (⟨S_, .f32⟩ : BufTy).Contents (Elt F) → (⟨S16x32, .f32⟩ : BufTy).Contents (Elt F)),
    binary main_v6 main_arg0 main_v8 ((fun l r => Host.dotGeneral dot_S16x16384x32_S16x16384x128_S16x32x128_1_1_2_2_0_0 none l r) : (⟨S16x16384x32, .f32⟩ : BufTy).Contents (Elt F) → (⟨S16x16384x128, .f32⟩ : BufTy).Contents (Elt F) → (⟨S16x32x128, .f32⟩ : BufTy).Contents (Elt F)),
    nullary main_cst_0 (constant S_ .f32 0x3F800000#32),
    unary main_cst_0 main_v9 (broadcastInDim S16x32 ![] bcast_S_S16x32 : (⟨S_, .f32⟩ : BufTy).Contents (Elt F) → (⟨S16x32, .f32⟩ : BufTy).Contents (Elt F)),
    binary main_v7 main_v9 main_v10 (maximumf : (⟨S16x32, .f32⟩ : BufTy).Contents (Elt F) → (⟨S16x32, .f32⟩ : BufTy).Contents (Elt F) → (⟨S16x32, .f32⟩ : BufTy).Contents (Elt F)),
    unary main_v10 main_v11 (broadcastInDim S16x32x1 ![0, 1] bcast_S16x32_S16x32x1_0_1 : (⟨S16x32, .f32⟩ : BufTy).Contents (Elt F) → (⟨S16x32x1, .f32⟩ : BufTy).Contents (Elt F)),
    unary main_v11 main_v12 (broadcastInDim S16x32x128 ![0, 1, 2] bcast_S16x32x1_S16x32x128_0_1_2 : (⟨S16x32x1, .f32⟩ : BufTy).Contents (Elt F) → (⟨S16x32x128, .f32⟩ : BufTy).Contents (Elt F)),
    binary main_v8 main_v12 main_v13 (Host.divf : (⟨S16x32x128, .f32⟩ : BufTy).Contents (Elt F) → (⟨S16x32x128, .f32⟩ : BufTy).Contents (Elt F) → (⟨S16x32x128, .f32⟩ : BufTy).Contents (Elt F)),
    binary main_v13 main_v13 main_v14 ((fun l r => Host.dotGeneral dot_S16x32x128_S16x32x128_S16x32x32_2_2_1_1_0_0 none l r) : (⟨S16x32x128, .f32⟩ : BufTy).Contents (Elt F) → (⟨S16x32x128, .f32⟩ : BufTy).Contents (Elt F) → (⟨S16x32x32, .f32⟩ : BufTy).Contents (Elt F)),
    unary main_v14 main_v15 (Host.absf : (⟨S16x32x32, .f32⟩ : BufTy).Contents (Elt F) → (⟨S16x32x32, .f32⟩ : BufTy).Contents (Elt F)),
    nullary main_cst_1 (constant S_ .f32 0x3F800000#32),
    unary main_cst_1 main_v16 (broadcastInDim S32x32 ![] bcast_S_S32x32 : (⟨S_, .f32⟩ : BufTy).Contents (Elt F) → (⟨S32x32, .f32⟩ : BufTy).Contents (Elt F)),
    TRef.nullary (TRef.of (T := ⟨S32x32, .i32⟩) main_call0_v0) (iotaInDim S32x32 32 0),
    TRef.nullary (TRef.of (T := ⟨S_, .i32⟩) main_call0_c) (constantI S_ 32 0#32),
    TRef.unary (TRef.of (T := ⟨S_, .i32⟩) main_call0_c) (TRef.of (T := ⟨S32x32, .i32⟩) main_call0_v1) (broadcastInDim S32x32 ![] bcast_S_S32x32),
    TRef.binary (TRef.of (T := ⟨S32x32, .i32⟩) main_call0_v0) (TRef.of (T := ⟨S32x32, .i32⟩) main_call0_v1) (TRef.of (T := ⟨S32x32, .i32⟩) main_call0_v2) addi,
    TRef.nullary (TRef.of (T := ⟨S32x32, .i32⟩) main_call0_v3) (iotaInDim S32x32 32 1),
    TRef.binary (TRef.of (T := ⟨S32x32, .i32⟩) main_call0_v2) (TRef.of (T := ⟨S32x32, .i32⟩) main_call0_v3) (TRef.of (T := ⟨S32x32, .i1⟩) main_call0_v4) (cmpi .sge),
    TRef.nullary (TRef.of (T := ⟨S_, .f32⟩) main_call0_cst) (constant S_ .f32 0x00000000#32),
    TRef.unary (TRef.of (T := ⟨S_, .f32⟩) main_call0_cst) (TRef.of (T := ⟨S32x32, .f32⟩) main_call0_v5) (broadcastInDim S32x32 ![] bcast_S_S32x32),
    TRef.ternary (TRef.of (T := ⟨S32x32, .i1⟩) main_call0_v4) (TRef.of (T := ⟨S32x32, .f32⟩) main_call0_v5) (TRef.of (T := ⟨S32x32, .f32⟩) main_v16) (TRef.of (T := ⟨S32x32, .f32⟩) main_v17) select,
    unary main_v17 main_v18 (broadcastInDim S1x32x32 ![1, 2] bcast_S32x32_S1x32x32_1_2 : (⟨S32x32, .f32⟩ : BufTy).Contents (Elt F) → (⟨S1x32x32, .f32⟩ : BufTy).Contents (Elt F)),
    unary main_v18 main_v19 (broadcastInDim S16x32x32 ![0, 1, 2] bcast_S1x32x32_S16x32x32_0_1_2 : (⟨S1x32x32, .f32⟩ : BufTy).Contents (Elt F) → (⟨S16x32x32, .f32⟩ : BufTy).Contents (Elt F)),
    binary main_v15 main_v19 main_v20 (mulf : (⟨S16x32x32, .f32⟩ : BufTy).Contents (Elt F) → (⟨S16x32x32, .f32⟩ : BufTy).Contents (Elt F) → (⟨S16x32x32, .f32⟩ : BufTy).Contents (Elt F)),
    nullary main_cst_2 (constant S_ .f32 0x00000000#32),
    binary main_v20 main_cst_2 main_v21 ((fun x v => Host.reduceAdd x v reducesTo_S16x32x32_S16_d1_2 h_S_) : (⟨S16x32x32, .f32⟩ : BufTy).Contents (Elt F) → (⟨S_, .f32⟩ : BufTy).Contents (Elt F) → (⟨S16, .f32⟩ : BufTy).Contents (Elt F)),
    nullary main_cst_3 (constant S_ .f32 0x00000000#32),
    unary main_cst_3 main_v22 (broadcastInDim S16x32 ![] bcast_S_S16x32 : (⟨S_, .f32⟩ : BufTy).Contents (Elt F) → (⟨S16x32, .f32⟩ : BufTy).Contents (Elt F)),
    binary main_v7 main_v22 main_v23 (cmpf .ogt : (⟨S16x32, .f32⟩ : BufTy).Contents (Elt F) → (⟨S16x32, .f32⟩ : BufTy).Contents (Elt F) → (⟨S16x32, .i1⟩ : BufTy).Contents (Elt F)),
    unary main_v23 main_v24 ((extui 32 · natLt_1_32) : (⟨S16x32, .i1⟩ : BufTy).Contents (Elt F) → (⟨S16x32, .i32⟩ : BufTy).Contents (Elt F)),
    nullary main_c (constantI S_ 32 0#32),
    binary main_v24 main_c main_v25 ((fun x v => Host.reduce IntOp.addi x v reducesTo_S16x32_S16_d1 h_S_) : (⟨S16x32, .i32⟩ : BufTy).Contents (Elt F) → (⟨S_, .i32⟩ : BufTy).Contents (Elt F) → (⟨S16, .i32⟩ : BufTy).Contents (Elt F)),
    unary main_v25 main_v26 (sitofp .f32 : (⟨S16, .i32⟩ : BufTy).Contents (Elt F) → (⟨S16, .f32⟩ : BufTy).Contents (Elt F)),
    nullary main_cst_4 (constant S_ .f32 0x3F800000#32),
    unary main_cst_4 main_v27 (broadcastInDim S16 ![] bcast_S_S16 : (⟨S_, .f32⟩ : BufTy).Contents (Elt F) → (⟨S16, .f32⟩ : BufTy).Contents (Elt F)),
    binary main_v26 main_v27 main_v28 (cmpf .ogt : (⟨S16, .f32⟩ : BufTy).Contents (Elt F) → (⟨S16, .f32⟩ : BufTy).Contents (Elt F) → (⟨S16, .i1⟩ : BufTy).Contents (Elt F)),
    nullary main_cst_5 (constant S_ .f32 0x3F800000#32),
    unary main_cst_5 main_v29 (broadcastInDim S16 ![] bcast_S_S16 : (⟨S_, .f32⟩ : BufTy).Contents (Elt F) → (⟨S16, .f32⟩ : BufTy).Contents (Elt F)),
    binary main_v26 main_v29 main_v30 (subf : (⟨S16, .f32⟩ : BufTy).Contents (Elt F) → (⟨S16, .f32⟩ : BufTy).Contents (Elt F) → (⟨S16, .f32⟩ : BufTy).Contents (Elt F)),
    binary main_v26 main_v30 main_v31 (mulf : (⟨S16, .f32⟩ : BufTy).Contents (Elt F) → (⟨S16, .f32⟩ : BufTy).Contents (Elt F) → (⟨S16, .f32⟩ : BufTy).Contents (Elt F)),
    nullary main_cst_6 (constant S_ .f32 0x3F000000#32),
    unary main_cst_6 main_v32 (broadcastInDim S16 ![] bcast_S_S16 : (⟨S_, .f32⟩ : BufTy).Contents (Elt F) → (⟨S16, .f32⟩ : BufTy).Contents (Elt F)),
    binary main_v31 main_v32 main_v33 (mulf : (⟨S16, .f32⟩ : BufTy).Contents (Elt F) → (⟨S16, .f32⟩ : BufTy).Contents (Elt F) → (⟨S16, .f32⟩ : BufTy).Contents (Elt F)),
    nullary main_cst_7 (constant S_ .f32 0x3F800000#32),
    TRef.unary (TRef.of (T := ⟨S_, .f32⟩) main_cst_7) (TRef.of (T := ⟨S_, .f32⟩) main_call1_v0) id,
    TRef.unary (TRef.of (T := ⟨S_, .f32⟩) main_call1_v0) (TRef.of (T := ⟨S16, .f32⟩) main_call1_v1) (broadcastInDim S16 ![] bcast_S_S16),
    TRef.ternary (TRef.of (T := ⟨S16, .i1⟩) main_v28) (TRef.of (T := ⟨S16, .f32⟩) main_v33) (TRef.of (T := ⟨S16, .f32⟩) main_call1_v1) (TRef.of (T := ⟨S16, .f32⟩) main_v34) select,
    binary main_v21 main_v34 main_v35 (Host.divf : (⟨S16, .f32⟩ : BufTy).Contents (Elt F) → (⟨S16, .f32⟩ : BufTy).Contents (Elt F) → (⟨S16, .f32⟩ : BufTy).Contents (Elt F)),
    nullary main_cst_8 (constant S_ .f32 0x00000000#32),
    binary main_v35 main_cst_8 main_v36 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    nullary main_cst_9 (constant S_ .f32 0x41800000#32),
    binary main_v36 main_cst_9 main_v37 (Host.divf : (⟨S_, .f32⟩ : BufTy).Contents (Elt F) → (⟨S_, .f32⟩ : BufTy).Contents (Elt F) → (⟨S_, .f32⟩ : BufTy).Contents (Elt F)) ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., nullary_bufs_sub .., unary_bufs_sub .., unary_bufs_sub .., unary_bufs_sub .., binary_bufs_sub .., unary_bufs_sub .., nullary_bufs_sub .., binary_bufs_sub .., binary_bufs_sub .., nullary_bufs_sub .., unary_bufs_sub .., binary_bufs_sub .., unary_bufs_sub .., unary_bufs_sub .., binary_bufs_sub .., binary_bufs_sub .., unary_bufs_sub .., nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., nullary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., unary_bufs_sub .., ternary_bufs_sub .., binary_bufs_sub .., nullary_bufs_sub .., binary_bufs_sub .., nullary_bufs_sub .., binary_bufs_sub ..⟩

/-- `onehot b n c`: `1.0` where position `n` of batch `b` is labelled `c`, else `0.0`. -/
def onehot (ids : IVec S16x16384 32) : FVec F S16x16384x32 .f32 :=
  uitofp .f32 (cmpi .eq
    (broadcastInDim S16x16384x32 ![0, 1, 2] bcast_S16x16384x1_S16x16384x32_0_1_2
      (broadcastInDim S16x16384x1 ![0, 1] bcast_S16x16384_S16x16384x1_0_1 ids))
    (broadcastInDim S16x16384x32 ![0, 1, 2] bcast_S1x1x32_S16x16384x32_0_1_2
      (broadcastInDim S1x1x32 ![2] bcast_S32_S1x1x32_2 (iotaInDim S32 32 0))))

/-- The cluster counts: `onehot` summed over the positions, from zero. -/
def counts (ids : IVec S16x16384 32) : FVec F S16x32 .f32 :=
  Host.reduceAdd (onehot (F := F) ids) (constant S_ .f32 0x00000000#32) reducesTo_S16x16384x32_S16x32_d1 h_S_

/-- The cluster totals: the product of `onehot` and `x` within each batch, contracting the positions. -/
def totals (x : FVec F S16x16384x128 .f32) (ids : IVec S16x16384 32) : FVec F S16x32x128 .f32 :=
  Host.dotGeneral dot_S16x16384x32_S16x16384x128_S16x32x128_1_1_2_2_0_0 none (onehot (F := F) ids) x

/-- Everything the program computes from the totals `s` and the counts `n`. -/
def tail (s : FVec F S16x32x128 .f32) (n : FVec F S16x32 .f32) : FVec F S_ .f32 :=
  let means : FVec F S16x32x128 .f32 := Host.divf s
    (broadcastInDim S16x32x128 ![0, 1, 2] bcast_S16x32x1_S16x32x128_0_1_2
      (broadcastInDim S16x32x1 ![0, 1] bcast_S16x32_S16x32x1_0_1
        (maximumf n (broadcastInDim S16x32 ![] bcast_S_S16x32 (constant S_ .f32 0x3F800000#32)))))
  let gram : FVec F S16x32x32 .f32 := Host.absf (Host.dotGeneral dot_S16x32x128_S16x32x128_S16x32x32_2_2_1_1_0_0 none means means)
  let upper : FVec F S32x32 .f32 := select
    (cmpi .sge (addi (iotaInDim S32x32 32 0) (broadcastInDim S32x32 ![] bcast_S_S32x32 (constantI S_ 32 0#32))) (iotaInDim S32x32 32 1))
    (broadcastInDim S32x32 ![] bcast_S_S32x32 (constant S_ .f32 0x00000000#32))
    (broadcastInDim S32x32 ![] bcast_S_S32x32 (constant S_ .f32 0x3F800000#32))
  let triu : FVec F S16 .f32 := Host.reduceAdd
    (mulf gram (broadcastInDim S16x32x32 ![0, 1, 2] bcast_S1x32x32_S16x32x32_0_1_2 (broadcastInDim S1x32x32 ![1, 2] bcast_S32x32_S1x32x32_1_2 upper)))
    (constant S_ .f32 0x00000000#32) reducesTo_S16x32x32_S16_d1_2 h_S_
  let valid : FVec F S16 .f32 := sitofp .f32 (Host.reduce IntOp.addi
    (extui 32 (cmpf .ogt n (broadcastInDim S16x32 ![] bcast_S_S16x32 (constant S_ .f32 0x00000000#32))) natLt_1_32)
    (constantI S_ 32 0#32) reducesTo_S16x32_S16_d1 h_S_)
  let denom : FVec F S16 .f32 := select
    (cmpf .ogt valid (broadcastInDim S16 ![] bcast_S_S16 (constant S_ .f32 0x3F800000#32)))
    (mulf (mulf valid (subf valid (broadcastInDim S16 ![] bcast_S_S16 (constant S_ .f32 0x3F800000#32))))
      (broadcastInDim S16 ![] bcast_S_S16 (constant S_ .f32 0x3F000000#32)))
    (broadcastInDim S16 ![] bcast_S_S16 (id (constant S_ .f32 0x3F800000#32)))
  Host.divf (Host.reduceAdd (Host.divf triu denom) (constant S_ .f32 0x00000000#32) reducesTo_S16_S_d0 h_S_)
    (constant S_ .f32 0x41800000#32)

set_option maxRecDepth 8192 in
set_option maxHeartbeats 2000000 in
/-- On every device, from any memory with zero counters: every weakly fair execution of @main terminates with the
    result at `tail` of the totals and the counts of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v37)
          = tail (F := F) (totals (F := F) (m ((c.tc : Thread nD τ).loc main_arg0)) (m ((c.tc : Thread nD τ).loc main_arg1)))
              (counts (F := F) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v37).trans (by after_results_simp <;> rfl),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.Hand

end
-- ==== Proof.KernelRun.lean ====
/-
  The kernel program's run, read back.  After the launch the two result arrays hold `total` and `count` of the
  arguments; the host operations after the launch are, operation for operation, the reference's `tail` applied
  to those two arrays; the arguments are never written.
-/
import proofs.«132069_j41223096107180_2_alg».proof.Proof.KernelArrays
import proofs.«132069_j41223096107180_2_alg».proof.Proof.RefRun
import Idealize.ShloMosaic.Lib.StableHlo.Run

noncomputable section

namespace Cert.KernelIdeal.Run

open Idealize.ShloMosaic Idealize.ShloMosaic.TcCoe Idealize.SL.Sem Idealize.ShloMosaic.StableHlo
open Idealize.ShloMosaic.Pipeline (Dat)
open Cert.KernelIdeal Cert.KernelIdeal.Gen Cert.KernelIdeal.Arrays

variable (m : (ℓ : Loc nD τ sig) → Buf (Elt Ideal) ℓ) (ρ : Dev nD → PrngReg)

set_option maxRecDepth 8192 in
/-- The result buffer after the host operations that follow the launch: the reference's `tail` of the two result
    arrays as the launch leaves them. -/
theorem tail_read (c : Dev nD) :
    Pipeline.afterTail₀ cfgs (dats m) 0 (V0 m) [hostOps1, hostOps1_1, hostOps1_2, hostOps1_3, hostOps1_4] c main_v29
      = Cert.ReferenceIdeal.Hand.tail (F := Ideal) ((dats m 0 c).arrAt 2 cfg0.N) ((dats m 0 c).arrAt 3 cfg0.N) := by
  have h2 : Pipeline.withArrays (cfgs 0).spec c (V0 m c) (fun w => (dats m 0 c).arrAt w (cfgs 0).N) (Proc.devRef .tc main_v0_0)
      = (dats m 0 c).arrAt 2 cfg0.N := Pipeline.withArrays_arr spec0 launch0.win.arr_inj c _ _ 2
  have h3 : Pipeline.withArrays (cfgs 0).spec c (V0 m c) (fun w => (dats m 0 c).arrAt w (cfgs 0).N) (Proc.devRef .tc main_v0_1)
      = (dats m 0 c).arrAt 3 cfg0.N := Pipeline.withArrays_arr spec0 launch0.win.arr_inj c _ _ 3
  unfold Pipeline.afterTail₀
  simp only [hostOps1, hostOps1_1, hostOps1_2, hostOps1_3, hostOps1_4, List.flatten_cons, List.flatten_nil, List.append_nil,
    List.cons_append, List.nil_append]
  after_results_simp
  rw [h2, h3]
  rfl

/-- The result buffer is none of the launch's four arrays. -/
theorem result_rest : main_v29 ∈ Pipeline.restRefs sig (cfgs 0).spec :=
  Pipeline.mem_restRefs_of main_v29 rfl (fun w => by fin_cases w <;> decide)

/-- Every weakly fair execution of the kernel program terminates with the result at `tail` of the totals and the
    counts of the arguments, and the arguments unchanged. -/
theorem run : θ_run defs (onTc (τ := τ) (main (F := Ideal))) ⟨m, fun _ => 0, ρ⟩ fun r => ∀ c : Dev nD,
      r.2.mem ((c.tc : Thread nD τ).loc main_v29)
          = Cert.ReferenceIdeal.Hand.tail (F := Ideal) (Cert.Seg.total (rows m c) (labels m c)) (Cert.Seg.count (labels m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v29 result_rest).trans ((tail_read m c).trans (by rw [final_totals, final_counts])),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Run

end
-- ==== Proof.RefStages.lean ====
/-
  The reference's per-batch cluster counts and cluster totals, read at an entry over the extended reals:
  they are the sums `∑ₙ [ids b n = c]` and `∑ₙ [ids b n = c] · x b n d` over all 16384 positions.
-/
import proofs.«132069_j41223096107180_2_alg».proof.Proof.RefRun
import proofs.«132069_j41223096107180_2_alg».proof.Proof.SegSpec
import Idealize.ShloMosaic.Lib.Pipeline.Value
import Idealize.ShloMosaic.Lib.ValueIdx
import Idealize.ShloMosaic.PureOps.Ideal.Laws

noncomputable section

namespace Cert.ReferenceIdeal.Stages

open Cert.ReferenceIdeal Cert.ReferenceIdeal.Gen Cert.ReferenceIdeal.Hand Idealize.ShloMosaic Idealize.ShloMosaic.ValueIdx Cert.Seg

/-- The labels, given a trailing unit axis and repeated along the 32 clusters, read at `(b, n, c)`: the label at `(b, n)`. -/
theorem ids_spread (ids : IVec S16x16384 32) (b : Fin 16) (n : Fin 16384) (c : Fin 32) :
    broadcastInDim S16x16384x32 ![0, 1, 2] bcast_S16x16384x1_S16x16384x32_0_1_2
      (broadcastInDim S16x16384x1 ![0, 1] bcast_S16x16384_S16x16384x1_0_1 ids) (ix3 b n c) = ids (ix2 b n) := by
  refine (broadcastInDim_apply _ bcast_S16x16384x1_S16x16384x32_0_1_2 _ (ix3 b n c) (ix3 b n (0 : Fin 1)) (fun a => ?_)).trans ?_
  · match a with
    | ⟨0, _⟩ => show b.val = if (16 : Nat) = 1 then 0 else b.val; rw [if_neg (by decide)]
    | ⟨1, _⟩ => show n.val = if (16384 : Nat) = 1 then 0 else n.val; rw [if_neg (by decide)]
    | ⟨2, _⟩ => show (0 : Nat) = if (1 : Nat) = 1 then 0 else c.val; rw [if_pos rfl]
  · exact broadcastInDim_apply _ bcast_S16x16384_S16x16384x1_0_1 ids (ix3 b n (0 : Fin 1)) (ix2 b n) (fun a => match a with
      | ⟨0, _⟩ => by show b.val = if (16 : Nat) = 1 then 0 else b.val; rw [if_neg (by decide)]
      | ⟨1, _⟩ => by show n.val = if (16384 : Nat) = 1 then 0 else n.val; rw [if_neg (by decide)])

/-- The cluster numbers `0 … 31`, laid along the last axis and repeated over batches and positions, read at `(b, n, c)`: `c`. -/
theorem clusters_spread (b : Fin 16) (n : Fin 16384) (c : Fin 32) :
    broadcastInDim S16x16384x32 ![0, 1, 2] bcast_S1x1x32_S16x16384x32_0_1_2
      (broadcastInDim S1x1x32 ![2] bcast_S32_S1x1x32_2 (iotaInDim S32 32 0)) (ix3 b n c) = BitVec.ofNat 32 c.val := by
  refine (broadcastInDim_apply _ bcast_S1x1x32_S16x16384x32_0_1_2 _ (ix3 b n c) (ix3 (0 : Fin 1) (0 : Fin 1) c) (fun a => ?_)).trans ?_
  · match a with
    | ⟨0, _⟩ => show (0 : Nat) = if (1 : Nat) = 1 then 0 else b.val; rw [if_pos rfl]
    | ⟨1, _⟩ => show (0 : Nat) = if (1 : Nat) = 1 then 0 else n.val; rw [if_pos rfl]
    | ⟨2, _⟩ => show c.val = if (32 : Nat) = 1 then 0 else c.val; rw [if_neg (by decide)]
  · exact broadcastInDim_apply _ bcast_S32_S1x1x32_2 (iotaInDim S32 32 0) (ix3 (0 : Fin 1) (0 : Fin 1) c) (ix1 c) (fun a => match a with
      | ⟨0, _⟩ => by show c.val = if (32 : Nat) = 1 then 0 else c.val; rw [if_neg (by decide)])

/-- The indicator array at `(b, n, c)`. -/
theorem onehot_apply (ids : IVec S16x16384 32) (b : Fin 16) (n : Fin 16384) (c : Fin 32) :
    onehot (F := Ideal) ids (ix3 b n c) = ind (ids (ix2 b n)) c.val := by
  unfold onehot
  show FloatOps.uitofp (F := Ideal) .f32 (IntOp.cmpi .eq
      (broadcastInDim S16x16384x32 ![0, 1, 2] bcast_S16x16384x1_S16x16384x32_0_1_2
        (broadcastInDim S16x16384x1 ![0, 1] bcast_S16x16384_S16x16384x1_0_1 ids) (ix3 b n c))
      (broadcastInDim S16x16384x32 ![0, 1, 2] bcast_S1x1x32_S16x16384x32_0_1_2
        (broadcastInDim S1x1x32 ![2] bcast_S32_S1x1x32_2 (iotaInDim S32 32 0)) (ix3 b n c))) = _
  rw [ids_spread, clusters_spread]
  rfl

/-- The reference's counts are `count`. -/
theorem counts_eq (ids : IVec S16x16384 32) : counts (F := Ideal) ids = Seg.count ids := by
  funext i
  obtain ⟨b, c, rfl⟩ : ∃ (b : Fin 16) (c : Fin 32), i = ix2 b c := ⟨i 0, i 1, eq_ix2 i⟩
  unfold counts
  simp only [Host.reduceAdd, Ideal.hostReduceAdd_def]
  rw [Ideal.hostReduceAdd_single reducesTo_S16x16384x32_S16x32_d1 (by decide)]
  show Ideal.ofBits .f32 0x00000000#32 + _ = ∑ n : Fin 16384, ind (ids (ix2 b n)) c.val
  rw [Ideal.ofBits_zero_f32, zero_add]
  refine Finset.sum_congr rfl fun n _ => ?_
  refine Eq.trans (congrArg (onehot (F := Ideal) ids) (funext fun a => Fin.ext ?_)) (onehot_apply ids b n c)
  match a with | ⟨0, _⟩ => rfl | ⟨1, _⟩ => rfl | ⟨2, _⟩ => rfl

/-! ## The totals: a product within each batch, contracting the positions

Batch axis 0 of both operands, contracted axis 1 of both, free axis 2 of each: at the result entry `(b, c, d)` and
position `n` the indicator array is read at `(b, n, c)` and `x` at `(b, n, d)`. -/

theorem prod_left_0 (i : S16x32x128.Idx) (q : dot_S16x16384x32_S16x16384x128_S16x32x128_1_1_2_2_0_0.contr.Idx) : (dot_S16x16384x32_S16x16384x128_S16x32x128_1_1_2_2_0_0.lhsIdx i q 0).val = (i 0).val := by
  unfold DotDims.lhsIdx
  rw [dif_pos (show (0 : Fin S16x16384x32.rank) ∈ dot_S16x16384x32_S16x16384x128_S16x32x128_1_1_2_2_0_0.lhsBatch by decide)]
  rfl
theorem prod_left_1 (i : S16x32x128.Idx) (q : dot_S16x16384x32_S16x16384x128_S16x32x128_1_1_2_2_0_0.contr.Idx) : (dot_S16x16384x32_S16x16384x128_S16x32x128_1_1_2_2_0_0.lhsIdx i q 1).val = (q ⟨0, by decide⟩).val :=
  dot_S16x16384x32_S16x16384x128_S16x32x128_1_1_2_2_0_0.lhsIdx_val_of_single rfl i q
theorem prod_left_2 (i : S16x32x128.Idx) (q : dot_S16x16384x32_S16x16384x128_S16x32x128_1_1_2_2_0_0.contr.Idx) : (dot_S16x16384x32_S16x16384x128_S16x32x128_1_1_2_2_0_0.lhsIdx i q 2).val = (i 1).val := by
  unfold DotDims.lhsIdx
  rw [dif_neg (show ¬(2 : Fin S16x16384x32.rank) ∈ dot_S16x16384x32_S16x16384x128_S16x32x128_1_1_2_2_0_0.lhsBatch by decide),
    dif_pos (show (2 : Fin S16x16384x32.rank) ∈ dot_S16x16384x32_S16x16384x128_S16x32x128_1_1_2_2_0_0.lhsNonContracting by decide)]
  rfl
theorem prod_right_0 (i : S16x32x128.Idx) (q : dot_S16x16384x32_S16x16384x128_S16x32x128_1_1_2_2_0_0.contr.Idx) : (dot_S16x16384x32_S16x16384x128_S16x32x128_1_1_2_2_0_0.rhsIdx i q 0).val = (i 0).val := by
  unfold DotDims.rhsIdx
  rw [dif_pos (show (0 : Fin S16x16384x128.rank) ∈ dot_S16x16384x32_S16x16384x128_S16x32x128_1_1_2_2_0_0.rhsBatch by decide)]
  rfl
theorem prod_right_1 (i : S16x32x128.Idx) (q : dot_S16x16384x32_S16x16384x128_S16x32x128_1_1_2_2_0_0.contr.Idx) : (dot_S16x16384x32_S16x16384x128_S16x32x128_1_1_2_2_0_0.rhsIdx i q 1).val = (q ⟨0, by decide⟩).val :=
  dot_S16x16384x32_S16x16384x128_S16x32x128_1_1_2_2_0_0.rhsIdx_val_of_single rfl i q
theorem prod_right_2 (i : S16x32x128.Idx) (q : dot_S16x16384x32_S16x16384x128_S16x32x128_1_1_2_2_0_0.contr.Idx) : (dot_S16x16384x32_S16x16384x128_S16x32x128_1_1_2_2_0_0.rhsIdx i q 2).val = (i 2).val := by
  unfold DotDims.rhsIdx
  rw [dif_neg (show ¬(2 : Fin S16x16384x128.rank) ∈ dot_S16x16384x32_S16x16384x128_S16x32x128_1_1_2_2_0_0.rhsBatch by decide),
    dif_pos (show (2 : Fin S16x16384x128.rank) ∈ dot_S16x16384x32_S16x16384x128_S16x32x128_1_1_2_2_0_0.rhsNonContracting by decide)]
  rfl

/-- The reference's totals are `total`. -/
theorem totals_eq (x : FVec Ideal S16x16384x128 .f32) (ids : IVec S16x16384 32) :
    totals (F := Ideal) x ids = Seg.total x ids := by
  funext i
  obtain ⟨b, c, d, rfl⟩ : ∃ (b : Fin 16) (c : Fin 32) (d : Fin 128), i = ix3 b c d := ⟨i 0, i 1, i 2, eq_ix3 i⟩
  unfold totals
  simp only [Host.dotGeneral]
  rw [Ideal.dotGeneral_apply, ← Equiv.sum_comp (ValueIdx.contrEquiv1 dot_S16x16384x32_S16x16384x128_S16x32x128_1_1_2_2_0_0 16384 rfl rfl).symm]
  show _ = ∑ n : Fin 16384, ind (ids (ix2 b n)) c.val * x (ix3 b n d)
  refine Finset.sum_congr rfl fun k _ => ?_
  have hk := ValueIdx.contrEquiv1_symm_val dot_S16x16384x32_S16x16384x128_S16x32x128_1_1_2_2_0_0 16384 rfl rfl k
  have el : dot_S16x16384x32_S16x16384x128_S16x32x128_1_1_2_2_0_0.lhsIdx (ix3 b c d) ((ValueIdx.contrEquiv1 dot_S16x16384x32_S16x16384x128_S16x32x128_1_1_2_2_0_0 16384 rfl rfl).symm k) = ix3 b k c :=
    funext fun a => Fin.ext (by
      match a with
      | ⟨0, _⟩ => exact prod_left_0 _ _
      | ⟨1, _⟩ => exact (prod_left_1 _ _).trans hk
      | ⟨2, _⟩ => exact prod_left_2 _ _)
  have er : dot_S16x16384x32_S16x16384x128_S16x32x128_1_1_2_2_0_0.rhsIdx (ix3 b c d) ((ValueIdx.contrEquiv1 dot_S16x16384x32_S16x16384x128_S16x32x128_1_1_2_2_0_0 16384 rfl rfl).symm k) = ix3 b k d :=
    funext fun a => Fin.ext (by
      match a with
      | ⟨0, _⟩ => exact prod_right_0 _ _
      | ⟨1, _⟩ => exact (prod_right_1 _ _).trans hk
      | ⟨2, _⟩ => exact prod_right_2 _ _)
  rw [el, er, onehot_apply]

end Cert.ReferenceIdeal.Stages

end
-- ==== Proof.lean ====
/-
  The kernel computes, per batch, the sums and the counts of the rows carrying each of 32 cluster labels — tile by
  tile over the 16384 positions, the labels turned into a 0/1 indicator array and contracted against the rows on
  the matrix unit, two resident accumulators zeroed at a batch chunk's first tile — and then, on the host, the
  mean over the batches of the strictly-upper-triangular sum of the absolute Gram matrix of the cluster means,
  divided by the number of pairs of non-empty clusters.  The reference computes the same sums and counts by one
  contraction and one reduction over all positions, and then the same host operations.

  Over the extended reals the two agree: a sum over the 16384 positions is the sum of the eight tiles' sums
  (regrouping a finite sum needs no finiteness), so both programs' totals and counts are
  `∑ₙ [ids b n = c] · x b n d` and `∑ₙ [ids b n = c]`; what follows is one function of those two arrays.
  The ideal pass rewrote nothing in the kernel, so it is its own idealization.  The frames: the two kernel
  programs' are generated; the reference's is its run with the result dropped.
-/
import proofs.«132069_j41223096107180_2_alg».proof.Defs
import proofs.«132069_j41223096107180_2_alg».proof.Proof.Gen.Kernel
import proofs.«132069_j41223096107180_2_alg».proof.Proof.Gen.Kernel.Skeleton
import proofs.«132069_j41223096107180_2_alg».proof.Proof.Gen.Kernel.Launch
import proofs.«132069_j41223096107180_2_alg».proof.Proof.Gen.Kernel.Points
import proofs.«132069_j41223096107180_2_alg».proof.Proof.Gen.Kernel.Frame
import proofs.«132069_j41223096107180_2_alg».proof.Proof.Gen.KernelIdeal
import proofs.«132069_j41223096107180_2_alg».proof.Proof.Gen.KernelIdeal.Skeleton
import proofs.«132069_j41223096107180_2_alg».proof.Proof.Gen.KernelIdeal.Launch
import proofs.«132069_j41223096107180_2_alg».proof.Proof.Gen.KernelIdeal.Points
import proofs.«132069_j41223096107180_2_alg».proof.Proof.Gen.KernelIdeal.Frame
import proofs.«132069_j41223096107180_2_alg».proof.Proof.Gen.ReferenceIdeal
import proofs.«132069_j41223096107180_2_alg».proof.Proof.Gen.Pre_finite_inputs
import proofs.«132069_j41223096107180_2_alg».proof.Proof.KernelRun
import proofs.«132069_j41223096107180_2_alg».proof.Proof.RefStages
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernel_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Hand.run (F := Ideal) m ρ)

/-- From arguments that agree, both programs end with the same function `tail` of the same two arrays. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2, Cert.ReferenceIdeal.Stages.totals_eq, Cert.ReferenceIdeal.Stages.counts_eq]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
